-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S2x400000 : Shape := ⟨2, ![2, 400000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : IVec S2x800000 32) (main_arg1 : IVec S2x400000 32) (main_arg2 : FVec F S50000x128 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S2x800000 : Shape := ⟨2, ![2, 800000]⟩
abbrev S2x400000 : Shape := ⟨2, ![2, 400000]⟩
abbrev S50000x128 : Shape := ⟨2, ![50000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩

abbrev nBuf : Space → Nat
  | .hbm => 147
  | .vmem => 10
  | .smem => 0
  | _ => 0

abbrev hbmTy0_0 (i : Nat) : BufTy := match i % 128 with
  | 0 => ⟨S2x800000, .i32⟩
  | 1 => ⟨S2x400000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S800000x1, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000, .f32⟩
  | 115 => ⟨S50000x1, .f32⟩
  | 116 => ⟨S50000x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S1x400000, .i32⟩
  | 123 => ⟨S400000, .i32⟩
  | 124 => ⟨S1x400000, .i32⟩
  | 125 => ⟨S400000, .i32⟩
  | 126 => ⟨S_, .i32⟩
  | 127 => ⟨S400000, .i32⟩
  | _ => ⟨S2x800000, .i32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x128, .f32⟩
  | 16 => ⟨S400000x128, .f32⟩
  | 17 => ⟨S_, .f32⟩
  | 18 => ⟨S400000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_20 : Ref sig .tc := ⟨.hbm, 135, rfl⟩
abbrev main_v102 : Ref sig .tc := ⟨.hbm, 136, rfl⟩
abbrev main_v103 : Ref sig .tc := ⟨.hbm, 137, rfl⟩
abbrev main_c_21 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x128_S400000_d1 : S400000x128.ReducesTo [1] S400000
  h_S_ : 0 < S_.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S400000x1_S400000x128_1_0_n_n_0_1_1128_wf : GatherDims.WF S50000x128 S400000x1 S400000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x800000 : Shape := ⟨2, ![2, 800000]⟩
abbrev S2x400000 : Shape := ⟨2, ![2, 400000]⟩
abbrev S50000x128 : Shape := ⟨2, ![50000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩

abbrev nBuf : Space → Nat
  | .hbm => 157
  | .vmem => 0
  | .smem => 0
  | _ => 0

abbrev hbmTy0_0 (i : Nat) : BufTy := match i % 128 with
  | 0 => ⟨S2x800000, .i32⟩
  | 1 => ⟨S2x400000, .i32⟩
  | 2 => ⟨S50000x128, .f32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S2x800000, .i32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S1x400000, .i32⟩
  | 5 => ⟨S400000, .i32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128, .f32⟩
  | 15 => ⟨S1x400000, .i32⟩
  | 16 => ⟨S400000, .i32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x128, .f32⟩
  | 26 => ⟨S400000x128, .f32⟩
  | 27 => ⟨S_, .f32⟩
  | 28 => ⟨S400000, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_c_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_24 : Ref sig .tc := ⟨.hbm, 145, rfl⟩
abbrev main_v106 : Ref sig .tc := ⟨.hbm, 146, rfl⟩
abbrev main_v107 : Ref sig .tc := ⟨.hbm, 147, rfl⟩
abbrev main_c_25 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_26 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x128_S400000_d1 : S400000x128.ReducesTo [1] S400000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S400000x1_S400000x128_1_0_n_n_0_1_1128_wf : GatherDims.WF S50000x128 S400000x1 S400000x128 [1] [0] [] [0] [] 1 ![1, 128]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf

class Facts : Prop extends Facts₀ where

variable [Facts]
-- ==== Proof.KernelRun.lean ====
/-
  The kernel program's run with its result named.

  The program is seven segments — host operations, the first matrix-product region, host operations, the second region, host
  operations — and its run leaves every unscoped buffer at the fold of those segments over the launch memory. Read at the
  result buffer this is the value of the last stretch of host operations over the second region's exit contents; read at an
  argument it is the launch contents.
-/
import proofs.«155974_j83313775608468_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the fold of
    the seven segments over the launch memory and the argument arrays as launched. -/
theorem run_named : θ_run defs (onTc (τ := τ) (main (F := F))) ⟨m, fun _ => 0, ρ⟩ (fun r => ∀ c : Dev nD,
      r.2.mem ((c.tc : Thread nD τ).loc main_v110) = W7 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v110 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Spec.lean ====
/-
  Two graph-convolution layers and a pair decoder, as terms over whole arrays at the extended reals.

  For a graph on 50000 nodes with 800000 directed edges (src e → dst e, given as 32-bit words), node features
  x, and the degree-normalised aggregation of one layer

      conv h b (n, c) = Σ_{e : dst e = n} h(src e, c) · (dinv(src e) · dinv(dst e))  +  h(n, c) · (dinv n · dinv n)  +  b c,

  with deg n = #{e : dst e = n} + 1 and dinv = deg^(-1/2) where deg > 0, there are two ways of writing the self-loop
  term h(n, c) · dinv n²: as a separate summand (the K-forms below), or by appending the 50000 loop edges n → n to the edge list
  and summing over all 850000 edges (the R-forms below).  This file only names the two families of terms; that they
  agree is proved elsewhere.
-/
import proofs.«155974_j83313775608468_2_alg».proof.Proof.Gen.KernelIdeal
import proofs.«155974_j83313775608468_2_alg».proof.Proof.Gen.ReferenceIdeal
import Idealize.ShloMosaic.PureOps.Ideal
import Idealize.ShloMosaic.Lib.ValueIdx
import Mathlib.Algebra.BigOperators.Fin

noncomputable section

namespace Cert.GcnSpec

open Idealize.ShloMosaic
open scoped BigOperators

/-- An array of 32-bit integer words of shape s. -/
abbrev IV (s : Shape) := IVec s 32
/-- An array of extended reals of shape s. -/
abbrev FV (s : Shape) := FVec Ideal s .f32

/-- The feature transform h = x · W entry by entry: h(n, c) = Σ_k x(n, k) · W(k, c). -/
def matSpec (x : FV Cert.KernelIdeal.S50000x128) (w : FV Cert.KernelIdeal.S128x128) : FV Cert.KernelIdeal.S50000x128 :=
  fun i => ∑ k : Fin 128, x (ValueIdx.ix2 (i 0) k) * w (ValueIdx.ix2 k (i 1))

namespace K
open Cert.KernelIdeal Cert.KernelIdeal.Facts₀

/-- Row 0 of the edge list: the source node of every edge. -/
def src (a0 : IV S2x800000) : IV S800000 :=
  shapeCast _ (extractStridedSlice S1x800000 ![0, 0] a0 slices_S2x800000_S1x800000_0_0) shapeCasts_S1x800000_S800000
/-- Row 1 of the edge list: the destination node of every edge. -/
def dst (a0 : IV S2x800000) : IV S800000 :=
  shapeCast _ (extractStridedSlice S1x800000 ![1, 0] a0 slices_S2x800000_S1x800000_1_0) shapeCasts_S1x800000_S800000

/-- The degree with the self loop counted apart: the number of edges into n, plus one. -/
def deg (d : IV S800000) : FV S50000 :=
  addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    (broadcastInDim S50000 ![] bcast_S_S50000 (constant (F := Ideal) S_ .f32 0x3F800000#32))

/-- deg^(-1/2) where deg > 0, else 0 (the maximum with a tiny positive number guards the root). -/
def dinv (g : FV S50000) : FV S50000 :=
  select (cmpf .ogt g (broadcastInDim S50000 ![] bcast_S_S50000 (constant (F := Ideal) S_ .f32 0x00000000#32)))
    (Host.rsqrt (maximumf g (broadcastInDim S50000 ![] bcast_S_S50000 (constant (F := Ideal) S_ .f32 0x2B8CBCCC#32))))
    (broadcastInDim S50000 ![] bcast_S_S50000 (id (constant (F := Ideal) S_ .f32 0x00000000#32)))

/-- A node index word made non-negative the way array indexing does: a negative word has 50000 added. -/
def wrap (x : IV S800000) : IV S800000 :=
  select (cmpi .slt x (broadcastInDim S800000 ![] bcast_S_S800000 (constantI S_ 32 0#32)))
    (addi x (broadcastInDim S800000 ![] bcast_S_S800000 (constantI S_ 32 50000#32))) x

/-- One layer, the self loop as its own summand: edges' messages summed into their destinations, plus h · dinv², plus the bias. -/
def conv (h : FV S50000x128) (di : FV S50000) (s d : IV S800000) (b : FV S128) : FV S50000x128 :=
  addf (addf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (mulf (Host.gather gather_S50000x128_S800000x1_S800000x128_1_0_n_n_0_1_1128 h (broadcastInDim S800000x1 ![0] bcast_S800000_S800000x1_0 (wrap s)))
        (broadcastInDim S800000x128 ![0, 1] bcast_S800000x1_S800000x128_0_1 (broadcastInDim S800000x1 ![0] bcast_S800000_S800000x1_0
          (mulf (Host.gather gather_S50000_S800000x1_S800000_n_0_n_n_0_1_1 di (broadcastInDim S800000x1 ![0] bcast_S800000_S800000x1_0 (wrap s)))
                (Host.gather gather_S50000_S800000x1_S800000_n_0_n_n_0_1_1 di (broadcastInDim S800000x1 ![0] bcast_S800000_S800000x1_0 (wrap d))))))))
    (mulf h (broadcastInDim S50000x128 ![0, 1] bcast_S50000x1_S50000x128_0_1 (broadcastInDim S50000x1 ![0] bcast_S50000_S50000x1_0 (mulf di di)))))
    (broadcastInDim S50000x128 ![0, 1] bcast_S1x128_S50000x128_0_1 (broadcastInDim S1x128 ![1] bcast_S128_S1x128_1 b))

/-- The positive part. -/
def relu (x : FV S50000x128) : FV S50000x128 :=
  maximumf x (broadcastInDim S50000x128 ![] bcast_S_S50000x128 (constant (F := Ideal) S_ .f32 0x00000000#32))

/-- A pair index word made non-negative. -/
def wrapP (x : IV S400000) : IV S400000 :=
  select (cmpi .slt x (broadcastInDim S400000 ![] bcast_S_S400000 (constantI S_ 32 0#32)))
    (addi x (broadcastInDim S400000 ![] bcast_S_S400000 (constantI S_ 32 50000#32))) x

/-- The decoder: for each candidate pair (p0, p1) the inner product of the two nodes' final features. -/
def decode (z : FV S50000x128) (a1 : IV S2x400000) : FV S400000 :=
  Host.reduceAdd
    (mulf
      (Host.gather gather_S50000x128_S400000x1_S400000x128_1_0_n_n_0_1_1128 z (broadcastInDim S400000x1 ![0] bcast_S400000_S400000x1_0
        (wrapP (shapeCast _ (extractStridedSlice S1x400000 ![0, 0] a1 slices_S2x400000_S1x400000_0_0) shapeCasts_S1x400000_S400000))))
      (Host.gather gather_S50000x128_S400000x1_S400000x128_1_0_n_n_0_1_1128 z (broadcastInDim S400000x1 ![0] bcast_S400000_S400000x1_0
        (wrapP (shapeCast _ (extractStridedSlice S1x400000 ![1, 0] a1 slices_S2x400000_S1x400000_1_0) shapeCasts_S1x400000_S400000)))))
    (constant (F := Ideal) S_ .f32 0x00000000#32) reducesTo_S400000x128_S400000_d1 h_S_

end K

namespace R
open Cert.ReferenceIdeal Cert.ReferenceIdeal.Facts₀

/-- An edge row with the 50000 loop edges appended: position 800000 + j holds the word j. -/
def withLoops (x : IV S800000) : IV S850000 :=
  concatenate S850000 0 [⟨S800000, x⟩, ⟨S50000, iotaInDim S50000 32 0⟩] concatenates_S800000_S50000_S850000_d0

/-- The degree with the loop edges in the list: the number of the 850000 edges into n. -/
def deg (d : IV S800000) : FV S50000 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (withLoops d))
    (broadcastInDim S850000 ![] bcast_S_S850000 (constant (F := Ideal) S_ .f32 0x3F800000#32))

/-- A node index word made non-negative, over the longer edge list. -/
def wrap (x : IV S850000) : IV S850000 :=
  select (cmpi .slt x (broadcastInDim S850000 ![] bcast_S_S850000 (constantI S_ 32 0#32)))
    (addi x (broadcastInDim S850000 ![] bcast_S_S850000 (constantI S_ 32 50000#32))) x

/-- One layer over the edge list with the loop edges appended, plus the bias. -/
def conv (h : FV S50000x128) (di : FV S50000) (s d : IV S800000) (b : FV S128) : FV S50000x128 :=
  addf
    (Host.scatterAdd scatter_S50000x128_S850000x1_S850000x128_1_0_0_1
      (broadcastInDim S50000x128 ![] bcast_S_S50000x128 (constant (F := Ideal) S_ .f32 0x00000000#32))
      (broadcastInDim S850000x1 ![0] bcast_S850000_S850000x1_0 (withLoops d))
      (mulf (Host.gather gather_S50000x128_S850000x1_S850000x128_1_0_n_n_0_1_1128 h (broadcastInDim S850000x1 ![0] bcast_S850000_S850000x1_0 (wrap (withLoops s))))
        (broadcastInDim S850000x128 ![0, 1] bcast_S850000x1_S850000x128_0_1 (broadcastInDim S850000x1 ![0] bcast_S850000_S850000x1_0
          (mulf (Host.gather gather_S50000_S850000x1_S850000_n_0_n_n_0_1_1 di (broadcastInDim S850000x1 ![0] bcast_S850000_S850000x1_0 (wrap (withLoops s))))
                (Host.gather gather_S50000_S850000x1_S850000_n_0_n_n_0_1_1 di (broadcastInDim S850000x1 ![0] bcast_S850000_S850000x1_0 (wrap (withLoops d)))))))))
    (broadcastInDim S50000x128 ![0, 1] bcast_S1x128_S50000x128_0_1 (broadcastInDim S1x128 ![1] bcast_S128_S1x128_1 b))

/-- The feature transform h = x · W as the host's matrix product. -/
def lin (x : FV S50000x128) (w : FV S128x128) : FV S50000x128 :=
  Host.dotGeneral (F := Ideal) (φ₁ := .f32) (φ₂ := .f32) dot_S50000x128_S128x128_S50000x128_1_0_0_1_n_n none x w

end R

end Cert.GcnSpec

end
-- ==== Proof.LibFoldStretch.lean ====
/-
  Reading a straight line of host operations a stretch at a time, and the typed references of an inlined function.

  The contents after a line of host operations are a fold of the operations' results over the starting contents. The fold
  over two stretches run one after the other is the fold over the second started from the fold over the first, so a long
  line can be read stretch by stretch, each stretch over an arbitrary starting valuation.

  The operations of a function the compiler inlined are stated over typed references: a value is carried to the buffer's
  own type when written and back when read, along the equation between the two types. Carried there and back it is the
  value it was; with this the composed term of such a stretch loses every inner pair of transports, and only the outermost
  write and the reads of buffers written outside the function keep one.
-/
import Idealize.ShloMosaic.Lib.StableHlo.Run

noncomputable section

namespace Cert.LibFoldStretch

open Idealize.ShloMosaic Idealize.ShloMosaic.StableHlo

variable {τ : Topo} {sig : RefSig} {Val : EltTy → Type}

/-- The fold over two stretches run one after the other is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h1, h2, h3⟩ := x
  subst h1
  rfl

/-- Contents read from a typed reference's buffer and written back are the contents. -/
theorem toBuf_ofBuf {T : BufTy} (x : TRef sig T) (v : x.ref.ty.Contents Val) : x.toBuf (x.ofBuf v) = v := by
  obtain ⟨r, h1, h2, h3⟩ := x
  subst h1
  rfl

end Cert.LibFoldStretch

end
-- ==== Proof.KStretchPre.lean ====
/-
  The host operations before the first region, read over an arbitrary starting valuation X.

  The first stretch cuts the edge list into its source and destination rows, counts the degrees and prepares the test
  deg > 0 and the guarded inverse square root; the second (an inlined selection) chooses between them. A buffer neither
  stretch writes keeps X's contents.
-/
import proofs.«155974_j83313775608468_2_alg».proof.Proof.Gen.KernelIdeal.Launch
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.KernelIdeal.Stretch

open Cert.KernelIdeal Cert.KernelIdeal.Gen Cert.GcnSpec
open Idealize.ShloMosaic Idealize.ShloMosaic.TcCoe Idealize.ShloMosaic.StableHlo

variable (X : Valuation τ sig (Elt Ideal))

/-- The source row of the edge list. -/
theorem pre_v1 : after (hostOps0 (F := Ideal)) X (Proc.devRef .tc main_v1) = K.src (X (Proc.devRef .tc main_arg0)) := by
  simp only [hostOps0]
  after_results_simp
  rfl

/-- The destination row of the edge list. -/
theorem pre_v3 : after (hostOps0 (F := Ideal)) X (Proc.devRef .tc main_v3) = K.dst (X (Proc.devRef .tc main_arg0)) := by
  simp only [hostOps0]
  after_results_simp
  rfl

/-- The test deg > 0. -/
theorem pre_v11 : after (hostOps0 (F := Ideal)) X (Proc.devRef .tc main_v11)
    = cmpf .ogt (K.deg (K.dst (X (Proc.devRef .tc main_arg0)))) (broadcastInDim S50000 ![] Gen.bcast_S_S50000 (constant (F := Ideal) S_ .f32 0x00000000#32)) := by
  simp only [hostOps0]
  after_results_simp
  rfl

/-- The inverse square root of the degree, guarded from below. -/
theorem pre_v14 : after (hostOps0 (F := Ideal)) X (Proc.devRef .tc main_v14)
    = Host.rsqrt (maximumf (K.deg (K.dst (X (Proc.devRef .tc main_arg0)))) (broadcastInDim S50000 ![] Gen.bcast_S_S50000 (constant (F := Ideal) S_ .f32 0x2B8CBCCC#32))) := by
  simp only [hostOps0]
  after_results_simp
  rfl

/-- The zero chosen where the degree is not positive. -/
theorem pre_cst_4 : after (hostOps0 (F := Ideal)) X (Proc.devRef .tc main_cst_4) = constant (F := Ideal) S_ .f32 0x00000000#32 := by
  simp only [hostOps0]
  after_results_simp

theorem pre_keep_main_arg1 : after (hostOps0 (F := Ideal)) X (Proc.devRef .tc main_arg1) = X (Proc.devRef .tc main_arg1) := by
  simp only [hostOps0]
  after_results_simp

theorem pre_keep_main_arg2 : after (hostOps0 (F := Ideal)) X (Proc.devRef .tc main_arg2) = X (Proc.devRef .tc main_arg2) := by
  simp only [hostOps0]
  after_results_simp

theorem pre_keep_main_arg3 : after (hostOps0 (F := Ideal)) X (Proc.devRef .tc main_arg3) = X (Proc.devRef .tc main_arg3) := by
  simp only [hostOps0]
  after_results_simp

theorem pre_keep_main_arg4 : after (hostOps0 (F := Ideal)) X (Proc.devRef .tc main_arg4) = X (Proc.devRef .tc main_arg4) := by
  simp only [hostOps0]
  after_results_simp

theorem pre_keep_main_arg5 : after (hostOps0 (F := Ideal)) X (Proc.devRef .tc main_arg5) = X (Proc.devRef .tc main_arg5) := by
  simp only [hostOps0]
  after_results_simp

theorem pre_keep_main_arg6 : after (hostOps0 (F := Ideal)) X (Proc.devRef .tc main_arg6) = X (Proc.devRef .tc main_arg6) := by
  simp only [hostOps0]
  after_results_simp

/-- The selection: the guarded inverse square root where the degree is positive, zero elsewhere. -/
theorem where_v15 : after (hostOps0_1 (F := Ideal)) X (Proc.devRef .tc main_v15)
    = select (X (Proc.devRef .tc main_v11)) (X (Proc.devRef .tc main_v14))
        (broadcastInDim S50000 ![] Gen.bcast_S_S50000 (id (X (Proc.devRef .tc main_cst_4)))) := by
  simp only [hostOps0_1]
  after_results_simp
  simp only [Cert.LibFoldStretch.ofBuf_toBuf]
  rfl

theorem where_keep_main_v1 : after (hostOps0_1 (F := Ideal)) X (Proc.devRef .tc main_v1) = X (Proc.devRef .tc main_v1) := by
  simp only [hostOps0_1]
  after_results_simp

theorem where_keep_main_v3 : after (hostOps0_1 (F := Ideal)) X (Proc.devRef .tc main_v3) = X (Proc.devRef .tc main_v3) := by
  simp only [hostOps0_1]
  after_results_simp

theorem where_keep_main_arg1 : after (hostOps0_1 (F := Ideal)) X (Proc.devRef .tc main_arg1) = X (Proc.devRef .tc main_arg1) := by
  simp only [hostOps0_1]
  after_results_simp

theorem where_keep_main_arg2 : after (hostOps0_1 (F := Ideal)) X (Proc.devRef .tc main_arg2) = X (Proc.devRef .tc main_arg2) := by
  simp only [hostOps0_1]
  after_results_simp

theorem where_keep_main_arg3 : after (hostOps0_1 (F := Ideal)) X (Proc.devRef .tc main_arg3) = X (Proc.devRef .tc main_arg3) := by
  simp only [hostOps0_1]
  after_results_simp

theorem where_keep_main_arg4 : after (hostOps0_1 (F := Ideal)) X (Proc.devRef .tc main_arg4) = X (Proc.devRef .tc main_arg4) := by
  simp only [hostOps0_1]
  after_results_simp

theorem where_keep_main_arg5 : after (hostOps0_1 (F := Ideal)) X (Proc.devRef .tc main_arg5) = X (Proc.devRef .tc main_arg5) := by
  simp only [hostOps0_1]
  after_results_simp

theorem where_keep_main_arg6 : after (hostOps0_1 (F := Ideal)) X (Proc.devRef .tc main_arg6) = X (Proc.devRef .tc main_arg6) := by
  simp only [hostOps0_1]
  after_results_simp

/-- Both stretches together: the normaliser dinv of the degrees counted from the destination row. -/
theorem pre_dinv : after (hostOps0_1 (F := Ideal)) (after (hostOps0 (F := Ideal)) X) (Proc.devRef .tc main_v15)
    = K.dinv (K.deg (K.dst (X (Proc.devRef .tc main_arg0)))) := by
  rw [where_v15, pre_v11, pre_v14, pre_cst_4]
  rfl

end Cert.KernelIdeal.Stretch

end
-- ==== Proof.KStretchMid.lean ====
/-
  The host operations between the two regions, read over an arbitrary starting valuation X.

  The first stretch is one graph-convolution layer over the first region's product h (gathers of h and of the normaliser
  along the edges, the messages summed into their destinations, the self-loop term and the bias added); the second (an
  inlined function) takes the positive part. A buffer neither stretch writes keeps X's contents.
-/
import proofs.«155974_j83313775608468_2_alg».proof.Proof.Gen.KernelIdeal.Launch
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.KernelIdeal.Stretch

open Cert.KernelIdeal Cert.KernelIdeal.Gen Cert.GcnSpec
open Idealize.ShloMosaic Idealize.ShloMosaic.TcCoe Idealize.ShloMosaic.StableHlo

variable (X : Valuation τ sig (Elt Ideal))

/-- The first layer before its nonlinearity. -/
theorem mid_v52 : after (hostOps1 (F := Ideal)) X (Proc.devRef .tc main_v52)
    = K.conv (X (Proc.devRef .tc main_v16)) (X (Proc.devRef .tc main_v15)) (X (Proc.devRef .tc main_v1)) (X (Proc.devRef .tc main_v3)) (X (Proc.devRef .tc main_arg4)) := by
  simp only [hostOps1]
  after_results_simp
  rfl

theorem mid_keep_main_v15 : after (hostOps1 (F := Ideal)) X (Proc.devRef .tc main_v15) = X (Proc.devRef .tc main_v15) := by
  simp only [hostOps1]
  after_results_simp

theorem mid_keep_main_v1 : after (hostOps1 (F := Ideal)) X (Proc.devRef .tc main_v1) = X (Proc.devRef .tc main_v1) := by
  simp only [hostOps1]
  after_results_simp

theorem mid_keep_main_v3 : after (hostOps1 (F := Ideal)) X (Proc.devRef .tc main_v3) = X (Proc.devRef .tc main_v3) := by
  simp only [hostOps1]
  after_results_simp

theorem mid_keep_main_arg1 : after (hostOps1 (F := Ideal)) X (Proc.devRef .tc main_arg1) = X (Proc.devRef .tc main_arg1) := by
  simp only [hostOps1]
  after_results_simp

theorem mid_keep_main_arg5 : after (hostOps1 (F := Ideal)) X (Proc.devRef .tc main_arg5) = X (Proc.devRef .tc main_arg5) := by
  simp only [hostOps1]
  after_results_simp

theorem mid_keep_main_arg6 : after (hostOps1 (F := Ideal)) X (Proc.devRef .tc main_arg6) = X (Proc.devRef .tc main_arg6) := by
  simp only [hostOps1]
  after_results_simp

/-- The positive part. -/
theorem relu_v53 : after (hostOps1_1 (F := Ideal)) X (Proc.devRef .tc main_v53) = K.relu (X (Proc.devRef .tc main_v52)) := by
  simp only [hostOps1_1]
  after_results_simp
  simp only [Cert.LibFoldStretch.ofBuf_toBuf]
  rfl

theorem relu_keep_main_v15 : after (hostOps1_1 (F := Ideal)) X (Proc.devRef .tc main_v15) = X (Proc.devRef .tc main_v15) := by
  simp only [hostOps1_1]
  after_results_simp

theorem relu_keep_main_v1 : after (hostOps1_1 (F := Ideal)) X (Proc.devRef .tc main_v1) = X (Proc.devRef .tc main_v1) := by
  simp only [hostOps1_1]
  after_results_simp

theorem relu_keep_main_v3 : after (hostOps1_1 (F := Ideal)) X (Proc.devRef .tc main_v3) = X (Proc.devRef .tc main_v3) := by
  simp only [hostOps1_1]
  after_results_simp

theorem relu_keep_main_arg1 : after (hostOps1_1 (F := Ideal)) X (Proc.devRef .tc main_arg1) = X (Proc.devRef .tc main_arg1) := by
  simp only [hostOps1_1]
  after_results_simp

theorem relu_keep_main_arg5 : after (hostOps1_1 (F := Ideal)) X (Proc.devRef .tc main_arg5) = X (Proc.devRef .tc main_arg5) := by
  simp only [hostOps1_1]
  after_results_simp

theorem relu_keep_main_arg6 : after (hostOps1_1 (F := Ideal)) X (Proc.devRef .tc main_arg6) = X (Proc.devRef .tc main_arg6) := by
  simp only [hostOps1_1]
  after_results_simp

end Cert.KernelIdeal.Stretch

end
-- ==== Proof.KStretchTail.lean ====
/-
  The host operations after the second region, read over an arbitrary starting valuation X: the second graph-convolution
  layer over the second region's product, then the decoder's inner products over the candidate pairs.
-/
import proofs.«155974_j83313775608468_2_alg».proof.Proof.Gen.KernelIdeal.Launch
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.KernelIdeal.Stretch

open Cert.KernelIdeal Cert.KernelIdeal.Gen Cert.GcnSpec
open Idealize.ShloMosaic Idealize.ShloMosaic.TcCoe Idealize.ShloMosaic.StableHlo

variable (X : Valuation τ sig (Elt Ideal))

set_option maxHeartbeats 4000000 in
/-- The result: the decoder over the second layer. -/
theorem tail_v110 : after (hostOps2 (F := Ideal)) X (Proc.devRef .tc main_v110)
    = K.decode (K.conv (X (Proc.devRef .tc main_v54)) (X (Proc.devRef .tc main_v15)) (X (Proc.devRef .tc main_v1)) (X (Proc.devRef .tc main_v3)) (X (Proc.devRef .tc main_arg6))) (X (Proc.devRef .tc main_arg1)) := by
  simp only [hostOps2]
  after_results_simp
  rfl

end Cert.KernelIdeal.Stretch

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.RegionValue0.lean ====
/-
  What the first row-tiled matrix product leaves in its output array.

  The grid has 10 points. Point t reads rows 5000·t … 5000·t + 4999 of the left operand (a block of 5000 × 128) and the whole
  128 × 128 right operand, multiplies the two into a zero tile and writes the product to rows 5000·t … 5000·t + 4999 of the
  output. On the extended reals a change of float format is the identity and the product into a zero tile is the plain
  sum over the contracted axis, so entry (r, q) of block t is Σ_k x(5000·t + r, k) · w(k, q): every block is the
  restriction of one function of the whole arrays, x · w entry by entry. The ten blocks tile the 50000 rows (row r lies
  in block r / 5000), so the output array ends holding x · w.
-/
import proofs.«155974_j83313775608468_2_alg».proof.Proof.Spec
import proofs.«155974_j83313775608468_2_alg».proof.Proof.LibPlainDot
import proofs.«155974_j83313775608468_2_alg».proof.Proof.Gen.KernelIdeal.Frame
import Idealize.ShloMosaic.Lib.Pipeline.Value

noncomputable section

namespace Cert.GcnSpec

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The zero offsets of a whole-tile access, however spelt. -/
theorem zeroOffsets : (![0, 0] : Fin 2 → Nat) = fun _ => 0 := funext fun a => by fin_cases a <;> rfl

/-- The tile the body of the first product stores, at (a, b): the sum over the contracted axis of the products of the
    loaded entries (the changes of format are the identity, the accumulator is the zero tile). -/
theorem tile0_apply (x0 : Vec Ideal S5000x128 .f32) (x1 : Vec Ideal S128x128 .f32) (a : Fin 5000) (b : Fin 128) :
    k0_pay1 (F := Ideal) x0 x1 (ix2 a b) = ∑ k : Fin 128, x0 (ix2 a k) * x1 (ix2 k b) := by
  unfold k0_pay1
  exact Cert.LibPlainDot.matmul_plain_zero_apply none (truncf .bf16 x0 bitsLt_bf16_f32) (truncf .bf16 x1 bitsLt_bf16_f32) a b

/-- The stored tile at an index y of the block agrees with x · w at an index i of the array as soon as row y 0 of the
    left block is row i 0 of x, the right block is w, and the two indices name the same column. -/
theorem tile0_eq_matSpec (x0 : Vec Ideal S5000x128 .f32) (x1 : Vec Ideal S128x128 .f32)
    (X : FV S50000x128) (W : FV S128x128) (y : S5000x128.Idx) (i : S50000x128.Idx)
    (h0 : ∀ k : Fin 128, x0 (ix2 (y 0) k) = X (ix2 (i 0) k))
    (h1 : ∀ k b : Fin 128, x1 (ix2 k b) = W (ix2 k b))
    (hc : y 1 = i 1) :
    k0_pay1 (F := Ideal) x0 x1 y = matSpec X W i := by
  obtain ⟨a, b, rfl⟩ : ∃ (a : Fin 5000) (b : Fin 128), y = ix2 a b := ⟨y 0, y 1, eq_ix2 y⟩
  refine (tile0_apply x0 x1 a b).trans ?_
  unfold matSpec
  refine Finset.sum_congr rfl fun k _ => ?_
  have hc' : b = i 1 := hc
  rw [h0 k, h1 k b, hc']

section Region0

variable (V : (c : Dev nD) → (b : Ref sig .tc) → Buf (Elt Ideal) ((c : Thread nD τ).loc b))

/-- The printed index maps over the grid: at point t the left operand's and the output's blocks are block row t, column
    block 0, and the right operand's block is always block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · w of the arrays as the region finds them. -/
theorem flushed0_eq (c : Dev nD) (t : Fin cfg0.N) :
    (dat0 (F := Ideal) V c).flushed 2 t
      = ((cfg0.win 2).blk t).view.read (Elt Ideal) (matSpec (V c main_arg2) (V c main_arg3)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := blockIndex0 t
  funext j
  refine tile0_eq_matSpec (iblk0 V c 0 t) (iblk0 V c 1 t) (V c main_arg2) (V c main_arg3) j
    (((cfg0.win 2).blk t).view.emb j) (fun k => ?_) (fun k b => ?_) ?_
  · show V c main_arg2 (((cfg0.win 0).blk t).view.emb (ix2 (j 0) k)) = V c main_arg2 _
    refine congrArg (V c main_arg2) (funext fun a => Fin.ext ?_)
    match a with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 128 + 1 * k.val = k.val
      rw [e1]; omega
  · show V c main_arg3 (((cfg0.win 1).blk t).view.emb (ix2 k b)) = V c main_arg3 _
    refine congrArg (V c main_arg3) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * b.val = b.val
      rw [e3]; omega
  · refine Fin.ext ?_
    show (j 1).val = win0_2.index t (1 : Fin 2) * 128 + 1 * (j 1).val
    rw [e5]; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v16).slice (win0_2.rect t)).set ↔ _
  rw [View.set_slice_whole, Rect.mem_set_unit]
  exact Iff.rfl

/-- The ten blocks cover the output array: row r lies in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := blockIndex0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The first product's output array after its region is x · w of the two operand arrays as the region finds them. -/
theorem region0_value (c : Dev nD) :
    (dat0 (F := Ideal) V c).arrAt 2 cfg0.N = matSpec (V c main_arg2) (V c main_arg3) :=
  (dat0 (F := Ideal) V c).arrAt_eq_of_cover 2 (matSpec (V c main_arg2) (V c main_arg3))
    (fun t _ => flushed0_eq V c t) cover0

end Region0

/-- The same at the run's own boundary contents: when the first region is left, its output buffer holds x · w of the two
    operand buffers as the region found them. -/
theorem region0_exit (m : (ℓ : Loc nD τ sig) → Buf (Elt Ideal) ℓ) (ρ : Dev nD → PrngReg) (c : Dev nD) :
    W3 (F := Ideal) m ρ c (Proc.devRef .tc main_v16) = matSpec (V2 m ρ c main_arg2) (V2 m ρ c main_arg3) :=
  (W3_arr m ρ c 2).trans (region0_value (V2 m ρ) c)

end Cert.GcnSpec

end
-- ==== Proof.RegionValue1.lean ====
/-
  What the second row-tiled matrix product leaves in its output array.

  The grid has 10 points. Point t reads rows 5000·t … 5000·t + 4999 of the left operand (a block of 5000 × 128) and the whole
  128 × 128 right operand, casts the left block to its own shape (the identity), multiplies the two into a zero tile and writes the product to rows 5000·t … 5000·t + 4999 of the
  output. On the extended reals a change of float format is the identity and the product into a zero tile is the plain
  sum over the contracted axis, so entry (r, q) of block t is Σ_k x(5000·t + r, k) · w(k, q): every block is the
  restriction of one function of the whole arrays, x · w entry by entry. The ten blocks tile the 50000 rows (row r lies
  in block r / 5000), so the output array ends holding x · w.
-/
import proofs.«155974_j83313775608468_2_alg».proof.Proof.Spec
import proofs.«155974_j83313775608468_2_alg».proof.Proof.LibPlainDot
import proofs.«155974_j83313775608468_2_alg».proof.Proof.Gen.KernelIdeal.Frame
import Idealize.ShloMosaic.Lib.Pipeline.Value

noncomputable section

namespace Cert.GcnSpec

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The zero offsets of a whole-tile access, however spelt. -/
theorem zeroOffsets1 : (![0, 0] : Fin 2 → Nat) = fun _ => 0 := funext fun a => by fin_cases a <;> rfl

/-- The tile the body of the second product stores, at (a, b): the sum over the contracted axis of the products of the
    loaded entries (the cast to the same shape and the changes of format are the identity, the accumulator is the zero tile). -/
theorem tile1_apply (x0 : Vec Ideal S5000x128 .f32) (x1 : Vec Ideal S128x128 .f32) (a : Fin 5000) (b : Fin 128) :
    k1_pay1 (F := Ideal) x0 x1 (ix2 a b) = ∑ k : Fin 128, x0 (ix2 a k) * x1 (ix2 k b) := by
  unfold k1_pay1
  refine (Cert.LibPlainDot.matmul_plain_zero_apply none
    (truncf .bf16 (shapeCast S5000x128 x0 shapeCasts_S5000x128_S5000x128) bitsLt_bf16_f32) (truncf .bf16 x1 bitsLt_bf16_f32) a b).trans ?_
  refine Finset.sum_congr rfl fun k _ => ?_
  exact congrArg (· * x1 (ix2 k b)) (congrFun (shapeCast_self x0 shapeCasts_S5000x128_S5000x128) (ix2 a k))

/-- The stored tile at an index y of the block agrees with x · w at an index i of the array as soon as row y 0 of the
    left block is row i 0 of x, the right block is w, and the two indices name the same column. -/
theorem tile1_eq_matSpec (x0 : Vec Ideal S5000x128 .f32) (x1 : Vec Ideal S128x128 .f32)
    (X : FV S50000x128) (W : FV S128x128) (y : S5000x128.Idx) (i : S50000x128.Idx)
    (h0 : ∀ k : Fin 128, x0 (ix2 (y 0) k) = X (ix2 (i 0) k))
    (h1 : ∀ k b : Fin 128, x1 (ix2 k b) = W (ix2 k b))
    (hc : y 1 = i 1) :
    k1_pay1 (F := Ideal) x0 x1 y = matSpec X W i := by
  obtain ⟨a, b, rfl⟩ : ∃ (a : Fin 5000) (b : Fin 128), y = ix2 a b := ⟨y 0, y 1, eq_ix2 y⟩
  refine (tile1_apply x0 x1 a b).trans ?_
  unfold matSpec
  refine Finset.sum_congr rfl fun k _ => ?_
  have hc' : b = i 1 := hc
  rw [h0 k, h1 k b, hc']

section Region1

variable (V : (c : Dev nD) → (b : Ref sig .tc) → Buf (Elt Ideal) ((c : Thread nD τ).loc b))

/-- The printed index maps over the grid: at point t the left operand's and the output's blocks are block row t, column
    block 0, and the right operand's block is always block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of x · w of the arrays as the region finds them. -/
theorem flushed1_eq (c : Dev nD) (t : Fin cfg1.N) :
    (dat1 (F := Ideal) V c).flushed 2 t
      = ((cfg1.win 2).blk t).view.read (Elt Ideal) (matSpec (V c main_v53) (V c main_arg5)) := by
  show (cfg1.win 2).cut (grid1.coords t) ((dat1 (F := Ideal) V c).after 2 t) = _
  rw [after1_2]
  unfold out1_2
  rw [View.canon_unit_zero zeroOffsets1]
  simp only [View.ld_unit_zero (S := S5000x128) zeroOffsets1, View.ld_unit_zero (S := S128x128) zeroOffsets1]
  obtain ⟨e0, e1, e2, e3, e4, e5⟩ := blockIndex1 t
  funext j
  refine tile1_eq_matSpec (iblk1 V c 0 t) (iblk1 V c 1 t) (V c main_v53) (V c main_arg5) j
    (((cfg1.win 2).blk t).view.emb j) (fun k => ?_) (fun k b => ?_) ?_
  · show V c main_v53 (((cfg1.win 0).blk t).view.emb (ix2 (j 0) k)) = V c main_v53 _
    refine congrArg (V c main_v53) (funext fun a => Fin.ext ?_)
    match a with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 128 + 1 * k.val = k.val
      rw [e1]; omega
  · show V c main_arg5 (((cfg1.win 1).blk t).view.emb (ix2 k b)) = V c main_arg5 _
    refine congrArg (V c main_arg5) (funext fun a => Fin.ext ?_)
    match a with
    | ⟨0, _⟩ =>
      show win1_1.index t (0 : Fin 2) * 128 + 1 * k.val = k.val
      rw [e2]; omega
    | ⟨1, _⟩ =>
      show win1_1.index t (1 : Fin 2) * 128 + 1 * b.val = b.val
      rw [e3]; omega
  · refine Fin.ext ?_
    show (j 1).val = win1_2.index t (1 : Fin 2) * 128 + 1 * (j 1).val
    rw [e5]; omega

/-- An index of the output array is in point t's block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v54).slice (win1_2.rect t)).set ↔ _
  rw [View.set_slice_whole, Rect.mem_set_unit]
  exact Iff.rfl

/-- The ten blocks cover the output array: row r lies in the block of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, e4, e5⟩ := blockIndex1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- The second product's output array after its region is x · w of the two operand arrays as the region finds them. -/
theorem region1_value (c : Dev nD) :
    (dat1 (F := Ideal) V c).arrAt 2 cfg1.N = matSpec (V c main_v53) (V c main_arg5) :=
  (dat1 (F := Ideal) V c).arrAt_eq_of_cover 2 (matSpec (V c main_v53) (V c main_arg5))
    (fun t _ => flushed1_eq V c t) cover1

end Region1

/-- The same at the run's own boundary contents: when the second region is left, its output buffer holds x · w of the two
    operand buffers as the region found them. -/
theorem region1_exit (m : (ℓ : Loc nD τ sig) → Buf (Elt Ideal) ℓ) (ρ : Dev nD → PrngReg) (c : Dev nD) :
    W6 (F := Ideal) m ρ c (Proc.devRef .tc main_v54) = matSpec (V5 m ρ c main_v53) (V5 m ρ c main_arg5) :=
  (W6_arr m ρ c 2).trans (region1_value (V5 m ρ) c)

end Cert.GcnSpec

end
-- ==== Proof.KernelValue.lean ====
/-
  The kernel program's result as one term of the argument arrays.

  The run leaves the result buffer at the fold of the program's seven segments over the launch memory. Reading the fold
  from the end: the last stretch is the decoder over the second layer of the second region's product; that region's product
  is x · W over the positive part of the first layer; the first layer is over the first region's product of the embedding
  with the first weight matrix; and the normaliser, the edge rows and the arguments pass through every later segment
  unchanged.
-/
import proofs.«155974_j83313775608468_2_alg».proof.Proof.Gen.KernelIdeal.Frame
import proofs.«155974_j83313775608468_2_alg».proof.Proof.Spec
import proofs.«155974_j83313775608468_2_alg».proof.Proof.KStretchPre
import proofs.«155974_j83313775608468_2_alg».proof.Proof.KStretchMid
import proofs.«155974_j83313775608468_2_alg».proof.Proof.KStretchTail
import proofs.«155974_j83313775608468_2_alg».proof.Proof.RegionValue0
import proofs.«155974_j83313775608468_2_alg».proof.Proof.RegionValue1

set_option maxRecDepth 16384

noncomputable section

namespace Cert.KernelIdeal.RunValue

open Cert.KernelIdeal Cert.KernelIdeal.Gen Cert.KernelIdeal.Stretch Cert.GcnSpec
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The kernel program's result as a term of the argument arrays. -/
def kernelTerm (a0 : IV S2x800000) (a1 : IV S2x400000) (a2 : FV S50000x128) (a3 : FV S128x128) (a4 : FV S128)
    (a5 : FV S128x128) (a6 : FV S128) : FV S400000 :=
  K.decode (K.conv (matSpec (K.relu (K.conv (matSpec a2 a3) (K.dinv (K.deg (K.dst a0))) (K.src a0) (K.dst a0) a4)) a5)
    (K.dinv (K.deg (K.dst a0))) (K.src a0) (K.dst a0) a6) a1

/-! ### At the first region's entry -/

theorem entry0_v15 : W2 (F := Ideal) m ρ c (Proc.devRef .tc main_v15)
    = K.dinv (K.deg (K.dst (m ((c : Thread nD τ).loc main_arg0)))) := pre_dinv (W0 (F := Ideal) m ρ c)
theorem entry0_v1 : W2 (F := Ideal) m ρ c (Proc.devRef .tc main_v1) = K.src (m ((c : Thread nD τ).loc main_arg0)) :=
  (where_keep_main_v1 _).trans (pre_v1 (W0 (F := Ideal) m ρ c))
theorem entry0_v3 : W2 (F := Ideal) m ρ c (Proc.devRef .tc main_v3) = K.dst (m ((c : Thread nD τ).loc main_arg0)) :=
  (where_keep_main_v3 _).trans (pre_v3 (W0 (F := Ideal) m ρ c))
theorem entry0_arg1 : W2 (F := Ideal) m ρ c (Proc.devRef .tc main_arg1) = m ((c : Thread nD τ).loc main_arg1) :=
  (where_keep_main_arg1 _).trans (pre_keep_main_arg1 (W0 (F := Ideal) m ρ c))
theorem entry0_arg2 : W2 (F := Ideal) m ρ c (Proc.devRef .tc main_arg2) = m ((c : Thread nD τ).loc main_arg2) :=
  (where_keep_main_arg2 _).trans (pre_keep_main_arg2 (W0 (F := Ideal) m ρ c))
theorem entry0_arg3 : W2 (F := Ideal) m ρ c (Proc.devRef .tc main_arg3) = m ((c : Thread nD τ).loc main_arg3) :=
  (where_keep_main_arg3 _).trans (pre_keep_main_arg3 (W0 (F := Ideal) m ρ c))
theorem entry0_arg4 : W2 (F := Ideal) m ρ c (Proc.devRef .tc main_arg4) = m ((c : Thread nD τ).loc main_arg4) :=
  (where_keep_main_arg4 _).trans (pre_keep_main_arg4 (W0 (F := Ideal) m ρ c))
theorem entry0_arg5 : W2 (F := Ideal) m ρ c (Proc.devRef .tc main_arg5) = m ((c : Thread nD τ).loc main_arg5) :=
  (where_keep_main_arg5 _).trans (pre_keep_main_arg5 (W0 (F := Ideal) m ρ c))
theorem entry0_arg6 : W2 (F := Ideal) m ρ c (Proc.devRef .tc main_arg6) = m ((c : Thread nD τ).loc main_arg6) :=
  (where_keep_main_arg6 _).trans (pre_keep_main_arg6 (W0 (F := Ideal) m ρ c))

/-! ### At the first region's exit -/

theorem exit0_v16 : W3 (F := Ideal) m ρ c (Proc.devRef .tc main_v16)
    = matSpec (m ((c : Thread nD τ).loc main_arg2)) (m ((c : Thread nD τ).loc main_arg3)) :=
  (region0_exit m ρ c).trans (congrArg₂ matSpec (entry0_arg2 m ρ c) (entry0_arg3 m ρ c))
theorem exit0_v15 : W3 (F := Ideal) m ρ c (Proc.devRef .tc main_v15)
    = K.dinv (K.deg (K.dst (m ((c : Thread nD τ).loc main_arg0)))) :=
  (W3_of_ne m ρ c main_v15 (by decide)).trans (entry0_v15 m ρ c)
theorem exit0_v1 : W3 (F := Ideal) m ρ c (Proc.devRef .tc main_v1) = K.src (m ((c : Thread nD τ).loc main_arg0)) :=
  (W3_of_ne m ρ c main_v1 (by decide)).trans (entry0_v1 m ρ c)
theorem exit0_v3 : W3 (F := Ideal) m ρ c (Proc.devRef .tc main_v3) = K.dst (m ((c : Thread nD τ).loc main_arg0)) :=
  (W3_of_ne m ρ c main_v3 (by decide)).trans (entry0_v3 m ρ c)
theorem exit0_arg1 : W3 (F := Ideal) m ρ c (Proc.devRef .tc main_arg1) = m ((c : Thread nD τ).loc main_arg1) :=
  (W3_of_ne m ρ c main_arg1 (by decide)).trans (entry0_arg1 m ρ c)
theorem exit0_arg4 : W3 (F := Ideal) m ρ c (Proc.devRef .tc main_arg4) = m ((c : Thread nD τ).loc main_arg4) :=
  (W3_of_ne m ρ c main_arg4 (by decide)).trans (entry0_arg4 m ρ c)
theorem exit0_arg5 : W3 (F := Ideal) m ρ c (Proc.devRef .tc main_arg5) = m ((c : Thread nD τ).loc main_arg5) :=
  (W3_of_ne m ρ c main_arg5 (by decide)).trans (entry0_arg5 m ρ c)
theorem exit0_arg6 : W3 (F := Ideal) m ρ c (Proc.devRef .tc main_arg6) = m ((c : Thread nD τ).loc main_arg6) :=
  (W3_of_ne m ρ c main_arg6 (by decide)).trans (entry0_arg6 m ρ c)

/-! ### At the second region's entry -/

theorem entry1_v53 : W5 (F := Ideal) m ρ c (Proc.devRef .tc main_v53)
    = K.relu (K.conv (matSpec (m ((c : Thread nD τ).loc main_arg2)) (m ((c : Thread nD τ).loc main_arg3)))
        (K.dinv (K.deg (K.dst (m ((c : Thread nD τ).loc main_arg0))))) (K.src (m ((c : Thread nD τ).loc main_arg0)))
        (K.dst (m ((c : Thread nD τ).loc main_arg0))) (m ((c : Thread nD τ).loc main_arg4))) := by
  refine (relu_v53 (W4 (F := Ideal) m ρ c)).trans (congrArg K.relu ?_)
  refine (mid_v52 (W3 (F := Ideal) m ρ c)).trans ?_
  rw [exit0_v16, exit0_v15, exit0_v1, exit0_v3, exit0_arg4]
theorem entry1_v15 : W5 (F := Ideal) m ρ c (Proc.devRef .tc main_v15)
    = K.dinv (K.deg (K.dst (m ((c : Thread nD τ).loc main_arg0)))) :=
  ((relu_keep_main_v15 _).trans (mid_keep_main_v15 (W3 (F := Ideal) m ρ c))).trans (exit0_v15 m ρ c)
theorem entry1_v1 : W5 (F := Ideal) m ρ c (Proc.devRef .tc main_v1) = K.src (m ((c : Thread nD τ).loc main_arg0)) :=
  ((relu_keep_main_v1 _).trans (mid_keep_main_v1 (W3 (F := Ideal) m ρ c))).trans (exit0_v1 m ρ c)
theorem entry1_v3 : W5 (F := Ideal) m ρ c (Proc.devRef .tc main_v3) = K.dst (m ((c : Thread nD τ).loc main_arg0)) :=
  ((relu_keep_main_v3 _).trans (mid_keep_main_v3 (W3 (F := Ideal) m ρ c))).trans (exit0_v3 m ρ c)
theorem entry1_arg1 : W5 (F := Ideal) m ρ c (Proc.devRef .tc main_arg1) = m ((c : Thread nD τ).loc main_arg1) :=
  ((relu_keep_main_arg1 _).trans (mid_keep_main_arg1 (W3 (F := Ideal) m ρ c))).trans (exit0_arg1 m ρ c)
theorem entry1_arg5 : W5 (F := Ideal) m ρ c (Proc.devRef .tc main_arg5) = m ((c : Thread nD τ).loc main_arg5) :=
  ((relu_keep_main_arg5 _).trans (mid_keep_main_arg5 (W3 (F := Ideal) m ρ c))).trans (exit0_arg5 m ρ c)
theorem entry1_arg6 : W5 (F := Ideal) m ρ c (Proc.devRef .tc main_arg6) = m ((c : Thread nD τ).loc main_arg6) :=
  ((relu_keep_main_arg6 _).trans (mid_keep_main_arg6 (W3 (F := Ideal) m ρ c))).trans (exit0_arg6 m ρ c)

/-! ### At the second region's exit, and the result -/

theorem exit1_v54 : W6 (F := Ideal) m ρ c (Proc.devRef .tc main_v54)
    = matSpec (K.relu (K.conv (matSpec (m ((c : Thread nD τ).loc main_arg2)) (m ((c : Thread nD τ).loc main_arg3)))
        (K.dinv (K.deg (K.dst (m ((c : Thread nD τ).loc main_arg0))))) (K.src (m ((c : Thread nD τ).loc main_arg0)))
        (K.dst (m ((c : Thread nD τ).loc main_arg0))) (m ((c : Thread nD τ).loc main_arg4))))
      (m ((c : Thread nD τ).loc main_arg5)) :=
  (region1_exit m ρ c).trans (congrArg₂ matSpec (entry1_v53 m ρ c) (entry1_arg5 m ρ c))

/-- The result buffer after the run is the kernel's term of the launch contents of the arguments. -/
theorem result_eq : W7 (F := Ideal) m ρ c (Proc.devRef .tc main_v110)
    = kernelTerm (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (tail_v110 (W6 (F := Ideal) m ρ c)).trans ?_
  rw [exit1_v54, W6_of_ne m ρ c main_v15 (by decide), W6_of_ne m ρ c main_v1 (by decide), W6_of_ne m ρ c main_v3 (by decide),
    W6_of_ne m ρ c main_arg6 (by decide), W6_of_ne m ρ c main_arg1 (by decide),
    entry1_v15, entry1_v1, entry1_v3, entry1_arg6, entry1_arg1]
  rfl

end Cert.KernelIdeal.RunValue

end
-- ==== Proof.RefChunks.lean ====
/-
  The reference program's line of host operations cut into eight stretches: the edge rows with the loop edges appended and
  the degree test and root; the selection that makes the normaliser; the first layer; its positive part; the same degree
  computation a second time; its selection; the second layer; the decoder. The whole line is the stretches in order.
-/
import proofs.«155974_j83313775608468_2_alg».proof.Proof.RefRun

set_option maxRecDepth 16384

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Stretch 1: operations 1 to 21 of the line. -/
abbrev c1 : List (HloOp τ sig (Elt F)) :=
  [ unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32) ]

/-- Stretch 2: operations 22 to 24 of the line. -/
abbrev c2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

/-- Stretch 3: operations 25 to 63 of the line. -/
abbrev c3 : List (HloOp τ sig (Elt F)) :=
  [ nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v5 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v5 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v5 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    binary main_arg2 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- Stretch 4: operations 64 to 66 of the line. -/
abbrev c4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf ]

/-- Stretch 5: operations 67 to 83 of the line. -/
abbrev c5 : List (HloOp τ sig (Elt F)) :=
  [ nullary main_v50 (iotaInDim S50000 32 0),
    binary main_v1 main_v50 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v50 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_10 (constant S_ .f32 0x3F800000#32),
    unary main_cst_10 main_v53 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v54 (broadcastInDim S50000 ![] bcast_S_S50000 : (⟨S_, .f32⟩ : BufTy).Contents (Elt F) → (⟨S50000, .f32⟩ : BufTy).Contents (Elt F)),
    unary main_v52 main_v55 (broadcastInDim S850000x1 ![0] bcast_S850000_S850000x1_0 : (⟨S850000, .i32⟩ : BufTy).Contents (Elt F) → (⟨S850000x1, .i32⟩ : BufTy).Contents (Elt F)),
    ternary main_v54 main_v55 main_v53 main_v56 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v57 (broadcastInDim S50000 ![] bcast_S_S50000 : (⟨S_, .f32⟩ : BufTy).Contents (Elt F) → (⟨S50000, .f32⟩ : BufTy).Contents (Elt F)),
    binary main_v56 main_v57 main_v58 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x2B8CBCCC#32),
    unary main_cst_13 main_v59 (broadcastInDim S50000 ![] bcast_S_S50000 : (⟨S_, .f32⟩ : BufTy).Contents (Elt F) → (⟨S50000, .f32⟩ : BufTy).Contents (Elt F)),
    binary main_v56 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (Host.rsqrt : (⟨S50000, .f32⟩ : BufTy).Contents (Elt F) → (⟨S50000, .f32⟩ : BufTy).Contents (Elt F)),
    nullary main_cst_14 (constant S_ .f32 0x00000000#32) ]

/-- Stretch 6: operations 84 to 86 of the line. -/
abbrev c6 : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v58) (TRef.of (T := ⟨S50000, .f32⟩) main_v61) (TRef.of (T := ⟨S50000, .f32⟩) main_call2_v1) (TRef.of (T := ⟨S50000, .f32⟩) main_v62) select ]

/-- Stretch 7: operations 87 to 125 of the line. -/
abbrev c7 : List (HloOp τ sig (Elt F)) :=
  [ nullary main_c_15 (constantI S_ 32 0#32),
    unary main_c_15 main_v63 (broadcastInDim S850000 ![] bcast_S_S850000 : (⟨S_, .i32⟩ : BufTy).Contents (Elt F) → (⟨S850000, .i32⟩ : BufTy).Contents (Elt F)),
    binary main_v51 main_v63 main_v64 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v65 (broadcastInDim S850000 ![] bcast_S_S850000 : (⟨S_, .i32⟩ : BufTy).Contents (Elt F) → (⟨S850000, .i32⟩ : BufTy).Contents (Elt F)),
    binary main_v51 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v51 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v62 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v70 (broadcastInDim S850000 ![] bcast_S_S850000 : (⟨S_, .i32⟩ : BufTy).Contents (Elt F) → (⟨S850000, .i32⟩ : BufTy).Contents (Elt F)),
    binary main_v52 main_v70 main_v71 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v72 (broadcastInDim S850000 ![] bcast_S_S850000 : (⟨S_, .i32⟩ : BufTy).Contents (Elt F) → (⟨S850000, .i32⟩ : BufTy).Contents (Elt F)),
    binary main_v52 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v52 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v62 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v69 main_v76 main_v77 (mulf : (⟨S850000, .f32⟩ : BufTy).Contents (Elt F) → (⟨S850000, .f32⟩ : BufTy).Contents (Elt F) → (⟨S850000, .f32⟩ : BufTy).Contents (Elt F)),
    binary main_v49 main_arg5 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_19 (constantI S_ 32 0#32),
    unary main_c_19 main_v79 (broadcastInDim S850000 ![] bcast_S_S850000 : (⟨S_, .i32⟩ : BufTy).Contents (Elt F) → (⟨S850000, .i32⟩ : BufTy).Contents (Elt F)),
    binary main_v51 main_v79 main_v80 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v81 (broadcastInDim S850000 ![] bcast_S_S850000 : (⟨S_, .i32⟩ : BufTy).Contents (Elt F) → (⟨S850000, .i32⟩ : BufTy).Contents (Elt F)),
    binary main_v51 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v51 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v78 main_v84 main_v85 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v77 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x128 ![0, 1] bcast_S850000x1_S850000x128_0_1 : (⟨S850000x1, .f32⟩ : BufTy).Contents (Elt F) → (⟨S850000x128, .f32⟩ : BufTy).Contents (Elt F)),
    binary main_v85 main_v87 main_v88 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v89 (broadcastInDim S50000x128 ![] bcast_S_S50000x128 : (⟨S_, .f32⟩ : BufTy).Contents (Elt F) → (⟨S50000x128, .f32⟩ : BufTy).Contents (Elt F)),
    unary main_v52 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)) ]

/-- Stretch 8: operations 126 to 150 of the line. -/
abbrev c8 : List (HloOp τ sig (Elt F)) :=
  [ unary main_arg1 main_v95 ((extractStridedSlice S1x400000 ![0, 0] · slices_S2x400000_S1x400000_0_0) : (⟨S2x400000, .i32⟩ : BufTy).Contents (Elt F) → (⟨S1x400000, .i32⟩ : BufTy).Contents (Elt F)),
    reshape main_v95 main_v96 rfl shapeCasts_S1x400000_S400000,
    nullary main_c_22 (constantI S_ 32 0#32),
    unary main_c_22 main_v97 (broadcastInDim S400000 ![] bcast_S_S400000 : (⟨S_, .i32⟩ : BufTy).Contents (Elt F) → (⟨S400000, .i32⟩ : BufTy).Contents (Elt F)),
    binary main_v96 main_v97 main_v98 (cmpi .slt : (⟨S400000, .i32⟩ : BufTy).Contents (Elt F) → (⟨S400000, .i32⟩ : BufTy).Contents (Elt F) → (⟨S400000, .i1⟩ : BufTy).Contents (Elt F)),
    nullary main_c_23 (constantI S_ 32 50000#32),
    unary main_c_23 main_v99 (broadcastInDim S400000 ![] bcast_S_S400000 : (⟨S_, .i32⟩ : BufTy).Contents (Elt F) → (⟨S400000, .i32⟩ : BufTy).Contents (Elt F)),
    binary main_v96 main_v99 main_v100 (addi : (⟨S400000, .i32⟩ : BufTy).Contents (Elt F) → (⟨S400000, .i32⟩ : BufTy).Contents (Elt F) → (⟨S400000, .i32⟩ : BufTy).Contents (Elt F)),
    ternary main_v98 main_v100 main_v96 main_v101 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v101 main_v102 (broadcastInDim S400000x1 ![0] bcast_S400000_S400000x1_0 : (⟨S400000, .i32⟩ : BufTy).Contents (Elt F) → (⟨S400000x1, .i32⟩ : BufTy).Contents (Elt F)),
    binary main_v94 main_v102 main_v103 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    unary main_arg1 main_v104 ((extractStridedSlice S1x400000 ![1, 0] · slices_S2x400000_S1x400000_1_0) : (⟨S2x400000, .i32⟩ : BufTy).Contents (Elt F) → (⟨S1x400000, .i32⟩ : BufTy).Contents (Elt F)),
    reshape main_v104 main_v105 rfl shapeCasts_S1x400000_S400000,
    nullary main_c_24 (constantI S_ 32 0#32),
    unary main_c_24 main_v106 (broadcastInDim S400000 ![] bcast_S_S400000 : (⟨S_, .i32⟩ : BufTy).Contents (Elt F) → (⟨S400000, .i32⟩ : BufTy).Contents (Elt F)),
    binary main_v105 main_v106 main_v107 (cmpi .slt : (⟨S400000, .i32⟩ : BufTy).Contents (Elt F) → (⟨S400000, .i32⟩ : BufTy).Contents (Elt F) → (⟨S400000, .i1⟩ : BufTy).Contents (Elt F)),
    nullary main_c_25 (constantI S_ 32 50000#32),
    unary main_c_25 main_v108 (broadcastInDim S400000 ![] bcast_S_S400000 : (⟨S_, .i32⟩ : BufTy).Contents (Elt F) → (⟨S400000, .i32⟩ : BufTy).Contents (Elt F)),
    binary main_v105 main_v108 main_v109 (addi : (⟨S400000, .i32⟩ : BufTy).Contents (Elt F) → (⟨S400000, .i32⟩ : BufTy).Contents (Elt F) → (⟨S400000, .i32⟩ : BufTy).Contents (Elt F)),
    ternary main_v107 main_v109 main_v105 main_v110 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v110 main_v111 (broadcastInDim S400000x1 ![0] bcast_S400000_S400000x1_0 : (⟨S400000, .i32⟩ : BufTy).Contents (Elt F) → (⟨S400000x1, .i32⟩ : BufTy).Contents (Elt F)),
    binary main_v94 main_v111 main_v112 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v103 main_v112 main_v113 (mulf : (⟨S400000x128, .f32⟩ : BufTy).Contents (Elt F) → (⟨S400000x128, .f32⟩ : BufTy).Contents (Elt F) → (⟨S400000x128, .f32⟩ : BufTy).Contents (Elt F)),
    nullary main_cst_26 (constant S_ .f32 0x00000000#32),
    binary main_v113 main_cst_26 main_v114 ((fun x v => Host.reduceAdd x v reducesTo_S400000x128_S400000_d1 h_S_) : (⟨S400000x128, .f32⟩ : BufTy).Contents (Elt F) → (⟨S_, .f32⟩ : BufTy).Contents (Elt F) → (⟨S400000, .f32⟩ : BufTy).Contents (Elt F)) ]

set_option maxHeartbeats 4000000 in
/-- The line is its eight stretches in order. -/
theorem ops_split : (Cert.ReferenceIdeal.RunP.ops (F := F)) = c1 ++ (c2 ++ (c3 ++ (c4 ++ (c5 ++ (c6 ++ (c7 ++ c8)))))) := rfl

end Cert.ReferenceIdeal.Chunks

end
-- ==== Proof.RefStretchA.lean ====
/-
  The reference's first two stretches over an arbitrary starting valuation X: the edge rows, the rows with the loop
  edges appended, the degree over the longer list with its test and guarded root; then the selection.
-/
import proofs.«155974_j83313775608468_2_alg».proof.Proof.RefChunks
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo

variable (X : Valuation τ sig (Elt Ideal))

/-- The source row. -/
theorem c1_v1 : after (c1 (F := Ideal)) X (Proc.devRef .tc main_v1)
    = K.src (X (Proc.devRef .tc main_arg0)) := by
  simp only [c1]
  after_results_simp
  rfl

/-- The destination row. -/
theorem c1_v3 : after (c1 (F := Ideal)) X (Proc.devRef .tc main_v3)
    = K.dst (X (Proc.devRef .tc main_arg0)) := by
  simp only [c1]
  after_results_simp
  rfl

/-- The source row with the loop edges appended. -/
theorem c1_v5 : after (c1 (F := Ideal)) X (Proc.devRef .tc main_v5)
    = R.withLoops (K.src (X (Proc.devRef .tc main_arg0))) := by
  simp only [c1]
  after_results_simp
  rfl

/-- The destination row with the loop edges appended. -/
theorem c1_v6 : after (c1 (F := Ideal)) X (Proc.devRef .tc main_v6)
    = R.withLoops (K.dst (X (Proc.devRef .tc main_arg0))) := by
  simp only [c1]
  after_results_simp
  rfl

/-- The test deg > 0. -/
theorem c1_v12 : after (c1 (F := Ideal)) X (Proc.devRef .tc main_v12)
    = cmpf .ogt (R.deg (K.dst (X (Proc.devRef .tc main_arg0)))) (broadcastInDim S50000 ![] Gen.bcast_S_S50000 (constant (F := Ideal) S_ .f32 0x00000000#32)) := by
  simp only [c1]
  after_results_simp
  rfl

/-- The guarded inverse square root of the degree. -/
theorem c1_v15 : after (c1 (F := Ideal)) X (Proc.devRef .tc main_v15)
    = Host.rsqrt (maximumf (R.deg (K.dst (X (Proc.devRef .tc main_arg0)))) (broadcastInDim S50000 ![] Gen.bcast_S_S50000 (constant (F := Ideal) S_ .f32 0x2B8CBCCC#32))) := by
  simp only [c1]
  after_results_simp
  rfl

/-- The zero chosen where the degree is not positive. -/
theorem c1_cst_3 : after (c1 (F := Ideal)) X (Proc.devRef .tc main_cst_3) = constant (F := Ideal) S_ .f32 0x00000000#32 := by
  simp only [c1]
  after_results_simp

theorem c1_keep_main_arg1 : after (c1 (F := Ideal)) X (Proc.devRef .tc main_arg1) = X (Proc.devRef .tc main_arg1) := by
  simp only [c1]
  after_results_simp

theorem c1_keep_main_arg2 : after (c1 (F := Ideal)) X (Proc.devRef .tc main_arg2) = X (Proc.devRef .tc main_arg2) := by
  simp only [c1]
  after_results_simp

theorem c1_keep_main_arg3 : after (c1 (F := Ideal)) X (Proc.devRef .tc main_arg3) = X (Proc.devRef .tc main_arg3) := by
  simp only [c1]
  after_results_simp

theorem c1_keep_main_arg4 : after (c1 (F := Ideal)) X (Proc.devRef .tc main_arg4) = X (Proc.devRef .tc main_arg4) := by
  simp only [c1]
  after_results_simp

theorem c1_keep_main_arg5 : after (c1 (F := Ideal)) X (Proc.devRef .tc main_arg5) = X (Proc.devRef .tc main_arg5) := by
  simp only [c1]
  after_results_simp

theorem c1_keep_main_arg6 : after (c1 (F := Ideal)) X (Proc.devRef .tc main_arg6) = X (Proc.devRef .tc main_arg6) := by
  simp only [c1]
  after_results_simp

/-- The selection. -/
theorem c2_v16 : after (c2 (F := Ideal)) X (Proc.devRef .tc main_v16)
    = select (X (Proc.devRef .tc main_v12)) (X (Proc.devRef .tc main_v15)) (broadcastInDim S50000 ![] Gen.bcast_S_S50000 (id (X (Proc.devRef .tc main_cst_3)))) := by
  simp only [c2]
  after_results_simp
  simp only [Cert.LibFoldStretch.ofBuf_toBuf]
  rfl

theorem c2_keep_main_v1 : after (c2 (F := Ideal)) X (Proc.devRef .tc main_v1) = X (Proc.devRef .tc main_v1) := by
  simp only [c2]
  after_results_simp

theorem c2_keep_main_v3 : after (c2 (F := Ideal)) X (Proc.devRef .tc main_v3) = X (Proc.devRef .tc main_v3) := by
  simp only [c2]
  after_results_simp

theorem c2_keep_main_v5 : after (c2 (F := Ideal)) X (Proc.devRef .tc main_v5) = X (Proc.devRef .tc main_v5) := by
  simp only [c2]
  after_results_simp

theorem c2_keep_main_v6 : after (c2 (F := Ideal)) X (Proc.devRef .tc main_v6) = X (Proc.devRef .tc main_v6) := by
  simp only [c2]
  after_results_simp

theorem c2_keep_main_arg1 : after (c2 (F := Ideal)) X (Proc.devRef .tc main_arg1) = X (Proc.devRef .tc main_arg1) := by
  simp only [c2]
  after_results_simp

theorem c2_keep_main_arg2 : after (c2 (F := Ideal)) X (Proc.devRef .tc main_arg2) = X (Proc.devRef .tc main_arg2) := by
  simp only [c2]
  after_results_simp

theorem c2_keep_main_arg3 : after (c2 (F := Ideal)) X (Proc.devRef .tc main_arg3) = X (Proc.devRef .tc main_arg3) := by
  simp only [c2]
  after_results_simp

theorem c2_keep_main_arg4 : after (c2 (F := Ideal)) X (Proc.devRef .tc main_arg4) = X (Proc.devRef .tc main_arg4) := by
  simp only [c2]
  after_results_simp

theorem c2_keep_main_arg5 : after (c2 (F := Ideal)) X (Proc.devRef .tc main_arg5) = X (Proc.devRef .tc main_arg5) := by
  simp only [c2]
  after_results_simp

theorem c2_keep_main_arg6 : after (c2 (F := Ideal)) X (Proc.devRef .tc main_arg6) = X (Proc.devRef .tc main_arg6) := by
  simp only [c2]
  after_results_simp

/-- The two stretches together: the normaliser of the degrees counted over the longer list. -/
theorem dinv_first : after (c2 (F := Ideal)) (after (c1 (F := Ideal)) X) (Proc.devRef .tc main_v16)
    = K.dinv (R.deg (K.dst (X (Proc.devRef .tc main_arg0)))) := by
  rw [c2_v16, c1_v12, c1_v15, c1_cst_3]
  rfl

end Cert.ReferenceIdeal.Stretch

end
-- ==== Proof.RefStretchB.lean ====
/-
  The reference's third and fourth stretches over an arbitrary starting valuation X: the first graph-convolution layer
  over the edge rows that have the loop edges in them, and its positive part.
-/
import proofs.«155974_j83313775608468_2_alg».proof.Proof.RefChunks
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo

variable (X : Valuation τ sig (Elt Ideal))

/-- One layer over an edge list that already has the loop edges in it, plus the bias. -/
def convL (h : FV S50000x128) (di : FV S50000) (sl dl : IV S850000) (b : FV S128) : FV S50000x128 :=
  addf
    (Host.scatterAdd scatter_S50000x128_S850000x1_S850000x128_1_0_0_1
      (broadcastInDim S50000x128 ![] Gen.bcast_S_S50000x128 (constant (F := Ideal) S_ .f32 0x00000000#32))
      (broadcastInDim S850000x1 ![0] Gen.bcast_S850000_S850000x1_0 dl)
      (mulf (Host.gather gather_S50000x128_S850000x1_S850000x128_1_0_n_n_0_1_1128 h (broadcastInDim S850000x1 ![0] Gen.bcast_S850000_S850000x1_0 (R.wrap sl)))
        (broadcastInDim S850000x128 ![0, 1] Gen.bcast_S850000x1_S850000x128_0_1 (broadcastInDim S850000x1 ![0] Gen.bcast_S850000_S850000x1_0
          (mulf (Host.gather gather_S50000_S850000x1_S850000_n_0_n_n_0_1_1 di (broadcastInDim S850000x1 ![0] Gen.bcast_S850000_S850000x1_0 (R.wrap sl)))
                (Host.gather gather_S50000_S850000x1_S850000_n_0_n_n_0_1_1 di (broadcastInDim S850000x1 ![0] Gen.bcast_S850000_S850000x1_0 (R.wrap dl))))))))
    (broadcastInDim S50000x128 ![0, 1] Gen.bcast_S1x128_S50000x128_0_1 (broadcastInDim S1x128 ![1] Gen.bcast_S128_S1x128_1 b))

/-- The layer over the rows with the loop edges appended is the layer of the specification. -/
theorem conv_of_convL (h : FV S50000x128) (di : FV S50000) (s d : IV S800000) (b : FV S128) :
    convL h di (R.withLoops s) (R.withLoops d) b = R.conv h di s d b := rfl

/-- The first layer before its nonlinearity. -/
theorem c3_v48 : after (c3 (F := Ideal)) X (Proc.devRef .tc main_v48)
    = convL (R.lin (X (Proc.devRef .tc main_arg2)) (X (Proc.devRef .tc main_arg3))) (X (Proc.devRef .tc main_v16)) (X (Proc.devRef .tc main_v5)) (X (Proc.devRef .tc main_v6)) (X (Proc.devRef .tc main_arg4)) := by
  simp only [c3]
  after_results_simp
  rfl

theorem c3_keep_main_v1 : after (c3 (F := Ideal)) X (Proc.devRef .tc main_v1) = X (Proc.devRef .tc main_v1) := by
  simp only [c3]
  after_results_simp

theorem c3_keep_main_v3 : after (c3 (F := Ideal)) X (Proc.devRef .tc main_v3) = X (Proc.devRef .tc main_v3) := by
  simp only [c3]
  after_results_simp

theorem c3_keep_main_arg1 : after (c3 (F := Ideal)) X (Proc.devRef .tc main_arg1) = X (Proc.devRef .tc main_arg1) := by
  simp only [c3]
  after_results_simp

theorem c3_keep_main_arg5 : after (c3 (F := Ideal)) X (Proc.devRef .tc main_arg5) = X (Proc.devRef .tc main_arg5) := by
  simp only [c3]
  after_results_simp

theorem c3_keep_main_arg6 : after (c3 (F := Ideal)) X (Proc.devRef .tc main_arg6) = X (Proc.devRef .tc main_arg6) := by
  simp only [c3]
  after_results_simp

/-- The positive part. -/
theorem c4_v49 : after (c4 (F := Ideal)) X (Proc.devRef .tc main_v49)
    = K.relu (X (Proc.devRef .tc main_v48)) := by
  simp only [c4]
  after_results_simp
  simp only [Cert.LibFoldStretch.ofBuf_toBuf]
  rfl

theorem c4_keep_main_v1 : after (c4 (F := Ideal)) X (Proc.devRef .tc main_v1) = X (Proc.devRef .tc main_v1) := by
  simp only [c4]
  after_results_simp

theorem c4_keep_main_v3 : after (c4 (F := Ideal)) X (Proc.devRef .tc main_v3) = X (Proc.devRef .tc main_v3) := by
  simp only [c4]
  after_results_simp

theorem c4_keep_main_arg1 : after (c4 (F := Ideal)) X (Proc.devRef .tc main_arg1) = X (Proc.devRef .tc main_arg1) := by
  simp only [c4]
  after_results_simp

theorem c4_keep_main_arg5 : after (c4 (F := Ideal)) X (Proc.devRef .tc main_arg5) = X (Proc.devRef .tc main_arg5) := by
  simp only [c4]
  after_results_simp

theorem c4_keep_main_arg6 : after (c4 (F := Ideal)) X (Proc.devRef .tc main_arg6) = X (Proc.devRef .tc main_arg6) := by
  simp only [c4]
  after_results_simp

end Cert.ReferenceIdeal.Stretch

end
-- ==== Proof.RefStretchC.lean ====
/-
  The reference's fifth and sixth stretches over an arbitrary starting valuation X: the loop edges appended to the edge
  rows and the degree's test and guarded root a second time, then the selection.
-/
import proofs.«155974_j83313775608468_2_alg».proof.Proof.RefChunks
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo

variable (X : Valuation τ sig (Elt Ideal))

/-- The source row with the loop edges appended. -/
theorem c5_v51 : after (c5 (F := Ideal)) X (Proc.devRef .tc main_v51)
    = R.withLoops (X (Proc.devRef .tc main_v1)) := by
  simp only [c5]
  after_results_simp
  rfl

/-- The destination row with the loop edges appended. -/
theorem c5_v52 : after (c5 (F := Ideal)) X (Proc.devRef .tc main_v52)
    = R.withLoops (X (Proc.devRef .tc main_v3)) := by
  simp only [c5]
  after_results_simp
  rfl

/-- The test deg > 0. -/
theorem c5_v58 : after (c5 (F := Ideal)) X (Proc.devRef .tc main_v58)
    = cmpf .ogt (R.deg (X (Proc.devRef .tc main_v3))) (broadcastInDim S50000 ![] Gen.bcast_S_S50000 (constant (F := Ideal) S_ .f32 0x00000000#32)) := by
  simp only [c5]
  after_results_simp
  rfl

/-- The guarded inverse square root of the degree. -/
theorem c5_v61 : after (c5 (F := Ideal)) X (Proc.devRef .tc main_v61)
    = Host.rsqrt (maximumf (R.deg (X (Proc.devRef .tc main_v3))) (broadcastInDim S50000 ![] Gen.bcast_S_S50000 (constant (F := Ideal) S_ .f32 0x2B8CBCCC#32))) := by
  simp only [c5]
  after_results_simp
  rfl

/-- The zero chosen where the degree is not positive. -/
theorem c5_cst_14 : after (c5 (F := Ideal)) X (Proc.devRef .tc main_cst_14) = constant (F := Ideal) S_ .f32 0x00000000#32 := by
  simp only [c5]
  after_results_simp

theorem c5_keep_main_v49 : after (c5 (F := Ideal)) X (Proc.devRef .tc main_v49) = X (Proc.devRef .tc main_v49) := by
  simp only [c5]
  after_results_simp

theorem c5_keep_main_arg1 : after (c5 (F := Ideal)) X (Proc.devRef .tc main_arg1) = X (Proc.devRef .tc main_arg1) := by
  simp only [c5]
  after_results_simp

theorem c5_keep_main_arg5 : after (c5 (F := Ideal)) X (Proc.devRef .tc main_arg5) = X (Proc.devRef .tc main_arg5) := by
  simp only [c5]
  after_results_simp

theorem c5_keep_main_arg6 : after (c5 (F := Ideal)) X (Proc.devRef .tc main_arg6) = X (Proc.devRef .tc main_arg6) := by
  simp only [c5]
  after_results_simp

/-- The selection. -/
theorem c6_v62 : after (c6 (F := Ideal)) X (Proc.devRef .tc main_v62)
    = select (X (Proc.devRef .tc main_v58)) (X (Proc.devRef .tc main_v61)) (broadcastInDim S50000 ![] Gen.bcast_S_S50000 (id (X (Proc.devRef .tc main_cst_14)))) := by
  simp only [c6]
  after_results_simp
  simp only [Cert.LibFoldStretch.ofBuf_toBuf]
  rfl

theorem c6_keep_main_v49 : after (c6 (F := Ideal)) X (Proc.devRef .tc main_v49) = X (Proc.devRef .tc main_v49) := by
  simp only [c6]
  after_results_simp

theorem c6_keep_main_v51 : after (c6 (F := Ideal)) X (Proc.devRef .tc main_v51) = X (Proc.devRef .tc main_v51) := by
  simp only [c6]
  after_results_simp

theorem c6_keep_main_v52 : after (c6 (F := Ideal)) X (Proc.devRef .tc main_v52) = X (Proc.devRef .tc main_v52) := by
  simp only [c6]
  after_results_simp

theorem c6_keep_main_arg1 : after (c6 (F := Ideal)) X (Proc.devRef .tc main_arg1) = X (Proc.devRef .tc main_arg1) := by
  simp only [c6]
  after_results_simp

theorem c6_keep_main_arg5 : after (c6 (F := Ideal)) X (Proc.devRef .tc main_arg5) = X (Proc.devRef .tc main_arg5) := by
  simp only [c6]
  after_results_simp

theorem c6_keep_main_arg6 : after (c6 (F := Ideal)) X (Proc.devRef .tc main_arg6) = X (Proc.devRef .tc main_arg6) := by
  simp only [c6]
  after_results_simp

/-- The two stretches together: the normaliser of the degrees counted over the longer list. -/
theorem dinv_second : after (c6 (F := Ideal)) (after (c5 (F := Ideal)) X) (Proc.devRef .tc main_v62)
    = K.dinv (R.deg (X (Proc.devRef .tc main_v3))) := by
  rw [c6_v62, c5_v58, c5_v61, c5_cst_14]
  rfl

end Cert.ReferenceIdeal.Stretch

end
-- ==== Proof.RefStretchD.lean ====
/-
  The reference's last two stretches over an arbitrary starting valuation X: the second graph-convolution layer and the
  decoder's inner products over the candidate pairs.
-/
import proofs.«155974_j83313775608468_2_alg».proof.Proof.RefStretchB
import proofs.«155974_j83313775608468_2_alg».proof.Proof.Spec
import proofs.«155974_j83313775608468_2_alg».proof.Proof.LibFoldStretch
import Idealize.ShloMosaic.Lib.StableHlo.Run

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo

variable (X : Valuation τ sig (Elt Ideal))

/-- The second layer. -/
theorem c7_v94 : after (c7 (F := Ideal)) X (Proc.devRef .tc main_v94)
    = convL (R.lin (X (Proc.devRef .tc main_v49)) (X (Proc.devRef .tc main_arg5))) (X (Proc.devRef .tc main_v62)) (X (Proc.devRef .tc main_v51)) (X (Proc.devRef .tc main_v52)) (X (Proc.devRef .tc main_arg6)) := by
  simp only [c7]
  after_results_simp
  rfl

theorem c7_keep_main_arg1 : after (c7 (F := Ideal)) X (Proc.devRef .tc main_arg1) = X (Proc.devRef .tc main_arg1) := by
  simp only [c7]
  after_results_simp

/-- The decoder. -/
theorem c8_v114 : after (c8 (F := Ideal)) X (Proc.devRef .tc main_v114)
    = K.decode (X (Proc.devRef .tc main_v94)) (X (Proc.devRef .tc main_arg1)) := by
  simp only [c8]
  after_results_simp
  rfl

end Cert.ReferenceIdeal.Stretch

end
-- ==== Proof.RefValue.lean ====
/-
  The reference program's result as one term of the argument arrays.

  The line of host operations is read stretch by stretch from the end over an arbitrary starting valuation: the decoder over
  the second layer, the second layer over the product of the first layer's positive part with the second weight matrix,
  the first layer over the product of the embedding with the first weight matrix, each layer over the edge rows with the
  loop edges appended and normalised by the degrees counted over that longer list.
-/
import proofs.«155974_j83313775608468_2_alg».proof.Proof.RefStretchA
import proofs.«155974_j83313775608468_2_alg».proof.Proof.RefStretchB
import proofs.«155974_j83313775608468_2_alg».proof.Proof.RefStretchC
import proofs.«155974_j83313775608468_2_alg».proof.Proof.RefStretchD

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo

/-- The reference program's result as a term of the argument arrays. -/
def refTerm (a0 : IV S2x800000) (a1 : IV S2x400000) (a2 : FV S50000x128) (a3 : FV S128x128) (a4 : FV S128)
    (a5 : FV S128x128) (a6 : FV S128) : FV S400000 :=
  K.decode (R.conv (R.lin (K.relu (R.conv (R.lin a2 a3) (K.dinv (R.deg (K.dst a0))) (K.src a0) (K.dst a0) a4)) a5)
    (K.dinv (R.deg (K.dst a0))) (K.src a0) (K.dst a0) a6) a1

variable (X : Valuation τ sig (Elt Ideal))

/-- The result buffer after the whole line, from any starting valuation, is the reference's term of the arguments there. -/
theorem result_eq : after (Cert.ReferenceIdeal.RunP.ops (F := Ideal)) X (Proc.devRef .tc main_v114)
    = refTerm (X (Proc.devRef .tc main_arg0)) (X (Proc.devRef .tc main_arg1)) (X (Proc.devRef .tc main_arg2))
        (X (Proc.devRef .tc main_arg3)) (X (Proc.devRef .tc main_arg4)) (X (Proc.devRef .tc main_arg5))
        (X (Proc.devRef .tc main_arg6)) := by
  rw [ops_split]
  simp only [Cert.LibFoldStretch.after_append]
  rw [c8_v114]
  rw [c7_v94]
  rw [c7_keep_main_arg1]
  rw [dinv_second]
  rw [c6_keep_main_v49, c6_keep_main_v51, c6_keep_main_v52, c6_keep_main_arg1, c6_keep_main_arg5, c6_keep_main_arg6]
  rw [c5_v51, c5_v52, c5_keep_main_v49, c5_keep_main_arg1, c5_keep_main_arg5, c5_keep_main_arg6]
  rw [c4_v49, c4_keep_main_v1, c4_keep_main_v3, c4_keep_main_arg1, c4_keep_main_arg5, c4_keep_main_arg6]
  rw [c3_v48, c3_keep_main_v1, c3_keep_main_v3, c3_keep_main_arg1, c3_keep_main_arg5, c3_keep_main_arg6]
  rw [dinv_first]
  rw [c2_keep_main_v1, c2_keep_main_v3, c2_keep_main_v5, c2_keep_main_v6, c2_keep_main_arg1, c2_keep_main_arg2,
    c2_keep_main_arg3, c2_keep_main_arg4, c2_keep_main_arg5, c2_keep_main_arg6]
  rw [c1_v1, c1_v3, c1_v5, c1_v6, c1_keep_main_arg1, c1_keep_main_arg2, c1_keep_main_arg3, c1_keep_main_arg4,
    c1_keep_main_arg5, c1_keep_main_arg6]
  rw [conv_of_convL, conv_of_convL]
  rfl

end Cert.ReferenceIdeal.Stretch

end
-- ==== Proof.RefFrame.lean ====
/-
  The reference program's run with its result named: every weakly fair execution terminates with the result buffer at the
  reference's term of the launch contents of the arguments, and the argument arrays unchanged (no operation of the line
  writes an argument's buffer).
-/
import proofs.«155974_j83313775608468_2_alg».proof.Proof.RefValue

set_option maxRecDepth 16384

noncomputable section

namespace Cert.ReferenceIdeal.Stretch

open Cert.ReferenceIdeal Cert.ReferenceIdeal.Gen Cert.ReferenceIdeal.Chunks Cert.GcnSpec
open Idealize.ShloMosaic Idealize.ShloMosaic.TcCoe Idealize.ShloMosaic.StableHlo Idealize.SL.Sem

variable (X : Valuation τ sig (Elt Ideal))

set_option maxHeartbeats 4000000 in
theorem ops_keep_main_arg0 : after (Cert.ReferenceIdeal.RunP.ops (F := Ideal)) X (Proc.devRef .tc main_arg0) = X (Proc.devRef .tc main_arg0) := by
  simp only [Cert.ReferenceIdeal.RunP.ops]
  after_results_simp

set_option maxHeartbeats 4000000 in
theorem ops_keep_main_arg1 : after (Cert.ReferenceIdeal.RunP.ops (F := Ideal)) X (Proc.devRef .tc main_arg1) = X (Proc.devRef .tc main_arg1) := by
  simp only [Cert.ReferenceIdeal.RunP.ops]
  after_results_simp

set_option maxHeartbeats 4000000 in
theorem ops_keep_main_arg2 : after (Cert.ReferenceIdeal.RunP.ops (F := Ideal)) X (Proc.devRef .tc main_arg2) = X (Proc.devRef .tc main_arg2) := by
  simp only [Cert.ReferenceIdeal.RunP.ops]
  after_results_simp

set_option maxHeartbeats 4000000 in
theorem ops_keep_main_arg3 : after (Cert.ReferenceIdeal.RunP.ops (F := Ideal)) X (Proc.devRef .tc main_arg3) = X (Proc.devRef .tc main_arg3) := by
  simp only [Cert.ReferenceIdeal.RunP.ops]
  after_results_simp

set_option maxHeartbeats 4000000 in
theorem ops_keep_main_arg4 : after (Cert.ReferenceIdeal.RunP.ops (F := Ideal)) X (Proc.devRef .tc main_arg4) = X (Proc.devRef .tc main_arg4) := by
  simp only [Cert.ReferenceIdeal.RunP.ops]
  after_results_simp

set_option maxHeartbeats 4000000 in
theorem ops_keep_main_arg5 : after (Cert.ReferenceIdeal.RunP.ops (F := Ideal)) X (Proc.devRef .tc main_arg5) = X (Proc.devRef .tc main_arg5) := by
  simp only [Cert.ReferenceIdeal.RunP.ops]
  after_results_simp

set_option maxHeartbeats 4000000 in
theorem ops_keep_main_arg6 : after (Cert.ReferenceIdeal.RunP.ops (F := Ideal)) X (Proc.devRef .tc main_arg6) = X (Proc.devRef .tc main_arg6) := by
  simp only [Cert.ReferenceIdeal.RunP.ops]
  after_results_simp

/-- The reference's run: the result at the reference's term of the arguments, the arguments as launched. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v114).trans (result_eq (launchContents m c)),
     (h c main_arg0).trans (ops_keep_main_arg0 (launchContents m c)),
     (h c main_arg1).trans (ops_keep_main_arg1 (launchContents m c)),
     (h c main_arg2).trans (ops_keep_main_arg2 (launchContents m c)),
     (h c main_arg3).trans (ops_keep_main_arg3 (launchContents m c)),
     (h c main_arg4).trans (ops_keep_main_arg4 (launchContents m c)),
     (h c main_arg5).trans (ops_keep_main_arg5 (launchContents m c)),
     (h c main_arg6).trans (ops_keep_main_arg6 (launchContents m c))⟩)
    (Cert.ReferenceIdeal.RunP.run (F := Ideal) m ρ)

end Cert.ReferenceIdeal.Stretch

end
-- ==== Proof.LibSegment.lean ====
/-
  Segment sums and row lookups on the host, read at one element.

  An accumulating scatter along the leading axis (what a segment sum lowers to) adds update position e to
  the operand's position col(e), where col(e) is the index word at e read as a SIGNED integer and NOT clamped:
  an index outside 0 … L - 1 names no position and its update is dropped. So, at the extended reals, position n of
  the result is the operand's entry plus the sum of the updates over the FIBRE { e | col(e) = n } — for a vector of
  updates (vecDims) and, column by column, for a matrix of update rows (rowDims).

  A gather along the leading axis (what x[idx] lowers to) reads, at position e, the operand at the index word at e
  read signed and CLAMPED into 0 … L - 1 — for a vector (vecTake) and, column by column, for the rows of a matrix
  (rowTake).

  The two meet in keep_of_toInt_eq: a word that reads as a position n < L is not negative, so the
  wrap of negative indices leaves it alone, and the clamp leaves it at n. Hence on the fibre of n the gather at the
  wrapped word reads position n.
-/
import Idealize.ShloMosaic.PureOps.ShapeOps
import Idealize.ShloMosaic.PureOps.Ideal
import Idealize.ShloMosaic.Lib.ValueIdx
import Mathlib.Algebra.BigOperators.Fin

noncomputable section

open scoped BigOperators

namespace Idealize.ShloMosaic.LibSegment

open Idealize.ShloMosaic Idealize.ShloMosaic.ValueIdx

/-! ## Which element an update position names -/

/-- An update position names the element i exactly when, on every axis, its start plus its window coordinate is
    i's coordinate (in particular it is then inside the operand). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e0 := congrArg (fun f : s.Idx => (f a).val) (Option.some.inj e)
      have := h a
      simp only at e0
      omega
    · intro e
      refine congrArg some (funext fun a => Fin.ext ?_)
      have := e a
      show (d.start j idx a + (d.window j a : Int)).toNat = (i a).val
      omega
  · rename_i h
    constructor
    · intro e; exact absurd e (by simp)
    · intro e
      exfalso
      apply h
      intro a
      have := e a
      have := (i a).isLt
      omega

variable {L K M w : Nat}

/-! ## A vector of updates added into a vector -/

/-- The dimension numbers of a segment sum of M scalars into a vector of length L. -/
abbrev vecDims (L M : Nat) (wf : ScatterDims.WF ⟨1, ![L]⟩ ⟨2, ![M, 1]⟩ ⟨1, ![M]⟩ [] [0] [0] 1) :
    ScatterDims ⟨1, ![L]⟩ ⟨2, ![M, 1]⟩ ⟨1, ![M]⟩ :=
  { updateWindowDims := [], insertedWindowDims := [0], scatterDimsToOperandDims := [0], indexVectorDim := 1, wf := wf }

section Vec
variable (wf : ScatterDims.WF ⟨1, ![L]⟩ ⟨2, ![M, 1]⟩ ⟨1, ![M]⟩ [] [0] [0] 1)

theorem vec_siIdx (e : Fin M) (c : Fin 1) : (vecDims L M wf).siIdx (ix1 e) c = ix2 e (0 : Fin 1) := by
  funext b
  match b with
  | ⟨0, _⟩ => rfl
  | ⟨1, _⟩ => exact Fin.ext (by have := c.isLt; show c.val = 0; omega)

theorem vec_start (e : Fin M) (idx : IVec ⟨2, ![M, 1]⟩ w) :
    (vecDims L M wf).start (ix1 e) idx 0 = (idx (ix2 e (0 : Fin 1))).toInt := by
  unfold ScatterDims.start
  rw [dif_pos (List.mem_singleton.2 rfl)]
  exact congrArg (fun k => (idx k).toInt) (vec_siIdx wf e _)

theorem vec_window (e : Fin M) : (vecDims L M wf).window (ix1 e) 0 = 0 := by
  unfold ScatterDims.window
  rw [dif_neg (by simp [ScatterDims.sKept, Shape.kept, List.finRange_succ])]

/-- Update position e names position n exactly when the index word at e, read signed, is n. -/
theorem vec_names_iff (e : Fin M) (idx : IVec ⟨2, ![M, 1]⟩ w) (n : Fin L) :
    (vecDims L M wf).resultIdx? (ix1 e) idx = some (ix1 n) ↔ (idx (ix2 e (0 : Fin 1))).toInt = (n.val : Int) := by
  rw [resultIdx?_eq_some_iff]
  constructor
  · intro h
    have := h 0
    rw [vec_start, vec_window] at this
    simp only [Nat.cast_zero, add_zero] at this
    exact this
  · intro h a
    match a with
    | ⟨0, _⟩ =>
      show (vecDims L M wf).start (ix1 e) idx 0 + (((vecDims L M wf).window (ix1 e) 0 : Nat) : Int) = (n.val : Int)
      rw [vec_start, vec_window, h]; simp

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- THE SEGMENT SUM OF SCALARS AT POSITION n: the operand's entry plus the updates over the fibre of n. -/
theorem hostScatterAdd_vec_apply (x : (⟨1, ![L]⟩ : Shape).Idx → EReal) (idx : IVec ⟨2, ![M, 1]⟩ w)
    (upd : (⟨1, ![M]⟩ : Shape).Idx → EReal) (n : Fin L) :
    Ideal.hostScatterAdd (vecDims L M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  refine Finset.sum_equiv idxEquiv1 (fun j => ?_) (fun j _ => ?_)
  · simp only [Finset.mem_filter, Finset.mem_univ, true_and]
    conv_lhs => rw [eq_ix1 j]
    exact vec_names_iff wf (j 0) idx n
  · conv_lhs => rw [eq_ix1 j]
    rfl

end Vec

/-! ## A matrix of update rows added into the rows of a matrix -/

/-- The dimension numbers of a segment sum of M rows of length K into an L × K matrix. -/
abbrev rowDims (L K M : Nat) (wf : ScatterDims.WF ⟨2, ![L, K]⟩ ⟨2, ![M, 1]⟩ ⟨2, ![M, K]⟩ [1] [0] [0] 1) :
    ScatterDims ⟨2, ![L, K]⟩ ⟨2, ![M, 1]⟩ ⟨2, ![M, K]⟩ :=
  { updateWindowDims := [1], insertedWindowDims := [0], scatterDimsToOperandDims := [0], indexVectorDim := 1, wf := wf }

section Row
variable (wf : ScatterDims.WF ⟨2, ![L, K]⟩ ⟨2, ![M, 1]⟩ ⟨2, ![M, K]⟩ [1] [0] [0] 1)

theorem row_siIdx (e : Fin M) (c : Fin K) (k : Fin 1) : (rowDims L K M wf).siIdx (ix2 e c) k = ix2 e (0 : Fin 1) := by
  funext b
  match b with
  | ⟨0, _⟩ => rfl
  | ⟨1, _⟩ => exact Fin.ext (by have := k.isLt; show k.val = 0; omega)

theorem row_start0 (e : Fin M) (c : Fin K) (idx : IVec ⟨2, ![M, 1]⟩ w) :
    (rowDims L K M wf).start (ix2 e c) idx 0 = (idx (ix2 e (0 : Fin 1))).toInt := by
  unfold ScatterDims.start
  rw [dif_pos (List.mem_singleton.2 rfl)]
  exact congrArg (fun k => (idx k).toInt) (row_siIdx wf e c _)

theorem row_start1 (e : Fin M) (c : Fin K) (idx : IVec ⟨2, ![M, 1]⟩ w) :
    (rowDims L K M wf).start (ix2 e c) idx 1 = 0 := by
  unfold ScatterDims.start
  rw [dif_neg (fun h => absurd (congrArg Fin.val (List.mem_singleton.1 h)) Nat.one_ne_zero)]

theorem row_window0 (e : Fin M) (c : Fin K) : (rowDims L K M wf).window (ix2 e c) 0 = 0 := by
  unfold ScatterDims.window
  rw [dif_neg (by simp [ScatterDims.sKept, Shape.kept, List.finRange_succ])]

theorem row_window1 (e : Fin M) (c : Fin K) : (rowDims L K M wf).window (ix2 e c) 1 = c.val := by
  unfold ScatterDims.window
  rw [dif_pos (by simp [ScatterDims.sKept, Shape.kept, List.finRange_succ])]
  rfl

/-- Update position (e, c) names element (n, c') exactly when the index word at e, read signed, is n and the
    columns agree. -/
theorem row_names_iff (e : Fin M) (c : Fin K) (idx : IVec ⟨2, ![M, 1]⟩ w) (n : Fin L) (c' : Fin K) :
    (rowDims L K M wf).resultIdx? (ix2 e c) idx = some (ix2 n c')
      ↔ (idx (ix2 e (0 : Fin 1))).toInt = (n.val : Int) ∧ c = c' := by
  rw [resultIdx?_eq_some_iff]
  constructor
  · intro h
    have h0 := h 0
    have h1 := h 1
    rw [row_start0, row_window0] at h0
    rw [row_start1, row_window1] at h1
    simp only [Nat.cast_zero, add_zero] at h0
    simp only [zero_add] at h1
    have h1' : ((c.val : Nat) : Int) = ((c'.val : Nat) : Int) := h1
    exact ⟨h0, Fin.ext (by exact_mod_cast h1')⟩
  · rintro ⟨h, rfl⟩ a
    match a with
    | ⟨0, _⟩ =>
      show (rowDims L K M wf).start (ix2 e c) idx 0 + (((rowDims L K M wf).window (ix2 e c) 0 : Nat) : Int) = (n.val : Int)
      rw [row_start0, row_window0, h]; simp
    | ⟨1, _⟩ =>
      show (rowDims L K M wf).start (ix2 e c) idx 1 + (((rowDims L K M wf).window (ix2 e c) 1 : Nat) : Int) = (c.val : Int)
      rw [row_start1, row_window1]; simp

/-- THE SEGMENT SUM OF ROWS AT ELEMENT (n, c): the operand's entry plus column c of the update rows over the fibre of n. -/
theorem hostScatterAdd_row_apply (x : (⟨2, ![L, K]⟩ : Shape).Idx → EReal) (idx : IVec ⟨2, ![M, 1]⟩ w)
    (upd : (⟨2, ![M, K]⟩ : Shape).Idx → EReal) (n : Fin L) (c : Fin K) :
    Ideal.hostScatterAdd (rowDims L K M wf) x idx upd (ix2 n c)
      = x (ix2 n c) + ∑ e ∈ Finset.univ.filter (fun e : Fin M => (idx (ix2 e (0 : Fin 1))).toInt = (n.val : Int)),
          upd (ix2 e c) := by
  unfold Ideal.hostScatterAdd
  congr 1
  have hP : ∀ j : (⟨2, ![M, K]⟩ : Shape).Idx, (rowDims L K M wf).resultIdx? j idx = some (ix2 n c)
      ↔ (idx (ix2 (j 0) (0 : Fin 1))).toInt = (n.val : Int) ∧ j 1 = c := fun j => by
    conv_lhs => rw [eq_ix2 j]
    exact row_names_iff wf (j 0) (j 1) idx n c
  refine Finset.sum_nbij' (fun j => (j 0 : Fin M)) (fun e => ix2 e c) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP (ix2 e c)).2 ⟨(Finset.mem_filter.1 he).2, rfl⟩⟩
  · intro j hj
    have h1 : j 1 = c := ((hP j).1 (Finset.mem_filter.1 hj).2).2
    show ix2 (j 0) c = j
    rw [← h1]; exact (eq_ix2 j).symm
  · intro e _; rfl
  · intro j hj
    have h1 : j 1 = c := ((hP j).1 (Finset.mem_filter.1 hj).2).2
    show upd j = upd (ix2 (j 0) c)
    rw [← h1]; exact congrArg upd (eq_ix2 j)

end Row

/-! ## Lookups along the leading axis -/

/-- The dimension numbers of x[idx] for a vector x of length L and M index words. -/
abbrev vecTake (L M : Nat) (wf : GatherDims.WF ⟨1, ![L]⟩ ⟨2, ![M, 1]⟩ ⟨1, ![M]⟩ [] [0] [] [0] [] 1 ![1]) :
    GatherDims ⟨1, ![L]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE LOOKUP IN A VECTOR AT e: the operand at the index word at e, read signed and clamped into 0 … L - 1. -/
theorem gather_vec_apply {α : Type} (hL : 0 < L)
    (wf : GatherDims.WF ⟨1, ![L]⟩ ⟨2, ![M, 1]⟩ ⟨1, ![M]⟩ [] [0] [] [0] [] 1 ![1])
    (x : (⟨1, ![L]⟩ : Shape).Idx → α) (idx : IVec ⟨2, ![M, 1]⟩ w) (e : Fin M) :
    Host.gather (vecTake L M wf) x idx (ix1 e)
      = x (ix1 ⟨min (idx (ix2 e (0 : Fin 1))).toInt.toNat (L - 1), by omega⟩) := by
  unfold Host.gather
  congr 1
  funext a
  obtain rfl : a = 0 := Subsingleton.elim _ _
  refine Fin.ext ?_
  show (vecTake L M wf).start (ix1 e) idx 0 + (vecTake L M wf).batchCoord (ix1 e) 0 + (vecTake L M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake L M wf).startIndexMap from List.mem_singleton.mpr rfl)]
  have hsi : (vecTake L M wf).siIdx (ix1 e) ⟨List.idxOf (0 : Fin 1) (vecTake L M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of x[idx] for the rows of an L × K matrix x and M index words. -/
abbrev rowTake (L K M : Nat) (wf : GatherDims.WF ⟨2, ![L, K]⟩ ⟨2, ![M, 1]⟩ ⟨2, ![M, K]⟩ [1] [0] [] [0] [] 1 ![1, K]) :
    GatherDims ⟨2, ![L, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE LOOKUP OF A ROW AT (e, c): column c of the operand's row at the index word at e, read signed and clamped
    into 0 … L - 1. -/
theorem gather_row_apply {α : Type} (hL : 0 < L)
    (wf : GatherDims.WF ⟨2, ![L, K]⟩ ⟨2, ![M, 1]⟩ ⟨2, ![M, K]⟩ [1] [0] [] [0] [] 1 ![1, K])
    (x : (⟨2, ![L, K]⟩ : Shape).Idx → α) (idx : IVec ⟨2, ![M, 1]⟩ w) (e : Fin M) (c : Fin K) :
    Host.gather (rowTake L K M wf) x idx (ix2 e c)
      = x (ix2 ⟨min (idx (ix2 e (0 : Fin 1))).toInt.toNat (L - 1), by omega⟩ c) := by
  unfold Host.gather
  congr 1
  funext a
  refine Fin.ext ?_
  match a with
  | ⟨0, _⟩ =>
    show (rowTake L K M wf).start (ix2 e c) idx 0 + (rowTake L K M wf).batchCoord (ix2 e c) 0
      + (rowTake L K M wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake L K M wf).startIndexMap from List.mem_singleton.mpr rfl)]
    have hsi : (rowTake L K M wf).siIdx (ix2 e c) ⟨List.idxOf (0 : Fin 2) (rowTake L K M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTake L K M wf).start (ix2 e c) idx 1 + (rowTake L K M wf).batchCoord (ix2 e c) 1
      + (rowTake L K M wf).offCoord (ix2 e c) 1 = c.val
    have hk : (1 : Fin 2) ∈ (rowTake L K M wf).sKept :=
      (GatherDims.mem_sKept _ _).2 ⟨fun h => absurd (congrArg Fin.val (List.mem_singleton.1 h)) Nat.one_ne_zero, List.not_mem_nil⟩
    rw [GatherDims.batchCoord_eq_zero _ _ _ List.not_mem_nil]
    unfold GatherDims.start GatherDims.offCoord
    rw [dif_neg (fun h => absurd (congrArg Fin.val (List.mem_singleton.1 h)) Nat.one_ne_zero), dif_pos hk]
    simp only [Nat.zero_add]
    rfl

/-! ## The index words -/

/-- A word that reads, signed, as a position n < L is not negative: the wrap of negative indices (add L when the
    word is below zero) leaves it alone, and the clamp into 0 … L - 1 leaves it at n. -/
theorem keep_of_toInt_eq (x Lw : BitVec 32) (n : Fin L) (h : x.toInt = (n.val : Int)) :
    min (Scalar.select (IntOp.cmpi .slt x 0#32) (IntOp.addi x Lw) x).toInt.toNat (L - 1) = n.val := by
  have hs : IntOp.cmpi .slt x 0#32 = 0#1 := by
    unfold IntOp.cmpi
    have : x.slt 0#32 = false := by
      rw [BitVec.slt_eq_decide]
      simp only [BitVec.toInt_zero, decide_eq_false_iff_not, not_lt]
      omega
    simp [this]
  rw [hs, select_zero, h]
  have := n.isLt
  omega

end Idealize.ShloMosaic.LibSegment

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LoopEdges.lean ====
/-
  Appending the loop edges to the edge list, against adding the self-loop term apart.

  A graph-convolution layer sums, into every node n, the messages of the edges that end in n, and adds the node's own
  message h(n, c) · dinv n². One way to write the own message is to append the L loop edges j → j (j = 0 … L - 1) to
  the list of M edges and to sum over all M + L of them; the other is to sum over the M edges and to add the own message
  as a summand of its own. Position n of a segment sum is the operand's entry plus the sum of the updates over the
  fibre { e | the index word at e, read signed, is n }. Among the last L positions of the longer list exactly one lies
  in that fibre — position M + n, whose word is n — and among the first M positions the longer list carries the words
  of the original one, so the fibre there is the original fibre and the updates are the original updates. Hence

      x₀ + (Σ_{fibre in the first M} upd + upd(M + n))  =  (x₀ + Σ_{original fibre} upd) + upd(M + n),

  which uses only that + on the extended reals is commutative and associative: nothing has to be finite. At position
  M + n the wrapped and clamped lookups read node n, so upd(M + n) is the node's own message. The same holds for the
  degree, whose updates are the constant 1.
-/
import proofs.«155974_j83313775608468_2_alg».proof.Proof.Spec
import proofs.«155974_j83313775608468_2_alg».proof.Proof.LibSegment
import proofs.«155974_j83313775608468_2_alg».proof.Proof.LibBcast
import Idealize.ShloMosaic.Lib.IdealHost

noncomputable section

open scoped BigOperators

namespace Cert.GcnSpec.Loop

open Idealize.ShloMosaic Idealize.ShloMosaic.ValueIdx Idealize.ShloMosaic.LibSegment Cert.LibBcast

/-- A sum over the fibre of n in a list of M + L positions whose last L positions carry the labels 0 … L - 1 in order:
    the fibre's part among the first M positions, plus the one position M + n. -/
theorem sum_fibre_append {A : Type*} [AddCommMonoid A] {M L N : ℕ} (hN : N = M + L)
    (col : Fin N → ℤ) (f : Fin N → A) (n : Fin L)
    (hloop : ∀ j : Fin L, col ⟨M + j.val, by omega⟩ = (j.val : ℤ)) :
    ∑ e ∈ Finset.univ.filter (fun e : Fin N => col e = (n.val : ℤ)), f e
      = ∑ e ∈ Finset.univ.filter (fun e : Fin M => col ⟨e.val, by omega⟩ = (n.val : ℤ)), f ⟨e.val, by omega⟩
        + f ⟨M + n.val, by omega⟩ := by
  subst hN
  rw [Finset.sum_filter, Fin.sum_univ_add, Finset.sum_filter]
  congr 1
  have h2 : ∀ j : Fin L, (if col (Fin.natAdd M j) = (n.val : ℤ) then f (Fin.natAdd M j) else 0)
      = if j = n then f (Fin.natAdd M j) else 0 := fun j => by
    have e : col (Fin.natAdd M j) = (j.val : ℤ) := hloop j
    rw [e]
    by_cases hj : j = n
    · rw [if_pos hj, if_pos (by rw [hj])]
    · rw [if_neg hj, if_neg (fun h => hj (Fin.ext (by exact_mod_cast h)))]
  rw [Finset.sum_congr rfl (fun j _ => h2 j), Finset.sum_ite_eq' Finset.univ n]
  rw [if_pos (Finset.mem_univ n)]
  rfl

variable {α : Type}

/-- Two vectors laid end to end read, at a position below the first one's length, the first vector there. -/
theorem concat_vec_left {M L N : ℕ} (x : (⟨1, ![M]⟩ : Shape).Idx → α) (y : (⟨1, ![L]⟩ : Shape).Idx → α)
    (h : Shape.Concatenates [(⟨1, ![M]⟩ : Shape), ⟨1, ![L]⟩] ⟨1, ![N]⟩ 0) (e : Fin M) (he : e.val < N) :
    concatenate ⟨1, ![N]⟩ 0 [⟨⟨1, ![M]⟩, x⟩, ⟨⟨1, ![L]⟩, y⟩] h (ix1 ⟨e.val, he⟩) = x (ix1 e) :=
  concatenate_pair_apply_left 0 x y h (ix1 ⟨e.val, he⟩) rfl (ix1 e) (fun b => by
    match b with
    | ⟨0, _⟩ => rfl)

/-- Two vectors laid end to end read, at the first one's length plus j, the second vector at j. -/
theorem concat_vec_right {M L N : ℕ} (x : (⟨1, ![M]⟩ : Shape).Idx → α) (y : (⟨1, ![L]⟩ : Shape).Idx → α)
    (h : Shape.Concatenates [(⟨1, ![M]⟩ : Shape), ⟨1, ![L]⟩] ⟨1, ![N]⟩ 0) (j : Fin L) (hj : M + j.val < N) :
    concatenate ⟨1, ![N]⟩ 0 [⟨⟨1, ![M]⟩, x⟩, ⟨⟨1, ![L]⟩, y⟩] h (ix1 ⟨M + j.val, hj⟩) = y (ix1 j) :=
  concatenate_pair_apply_right 0 x y h (ix1 ⟨M + j.val, hj⟩) rfl rfl (ix1 j) (fun b hb => by
    match b with
    | ⟨0, _⟩ => exact absurd rfl hb) (by
    show j.val + M = M + j.val
    omega)

/-- The word of a position j below 2³¹ reads, signed, as j. -/
theorem toInt_ofNat_of_lt (j : ℕ) (hj : j < 2147483648) : (BitVec.ofNat 32 j).toInt = (j : ℤ) := by
  have h1 : (BitVec.ofNat 32 j).toNat = j := by rw [BitVec.toNat_ofNat]; omega
  unfold BitVec.toInt
  rw [h1, if_pos (by omega)]

/-! ## The index words of the list with the loop edges appended -/

section Words
variable {M L N : ℕ}

/-- An edge row with the L loop edges appended: position M + j holds the word j. -/
abbrev loops (h : Shape.Concatenates [(⟨1, ![M]⟩ : Shape), ⟨1, ![L]⟩] ⟨1, ![N]⟩ 0) (x : IVec ⟨1, ![M]⟩ 32) : IVec ⟨1, ![N]⟩ 32 :=
  concatenate ⟨1, ![N]⟩ 0 [⟨⟨1, ![M]⟩, x⟩, ⟨⟨1, ![L]⟩, iotaInDim ⟨1, ![L]⟩ 32 0⟩] h

/-- A node index word made non-negative the way array indexing does: a negative word has Lw added. -/
abbrev wrapW {s : Shape} (hb : (⟨0, ![]⟩ : Shape).BroadcastsInDim s (![] : Fin 0 → Fin s.rank)) (Lw : BitVec 32) (x : IVec s 32) : IVec s 32 :=
  select (cmpi .slt x (broadcastInDim s ![] hb (constantI ⟨0, ![]⟩ 32 0#32)))
    (addi x (broadcastInDim s ![] hb (constantI ⟨0, ![]⟩ 32 Lw))) x

/-- The wrapped word at a position: the word itself unless it is negative, else the word plus Lw. -/
theorem wrapW_apply {s : Shape} (hb : (⟨0, ![]⟩ : Shape).BroadcastsInDim s (![] : Fin 0 → Fin s.rank)) (Lw : BitVec 32) (x : IVec s 32)
    (i : s.Idx) :
    wrapW hb Lw x i = Scalar.select (IntOp.cmpi .slt (x i) 0#32) (IntOp.addi (x i) Lw) (x i) := rfl

variable (h : Shape.Concatenates [(⟨1, ![M]⟩ : Shape), ⟨1, ![L]⟩] ⟨1, ![N]⟩ 0)
  (hcN : (⟨1, ![N]⟩ : Shape).BroadcastsInDim ⟨2, ![N, 1]⟩ (![0] : Fin 1 → Fin 2))
  (hcM : (⟨1, ![M]⟩ : Shape).BroadcastsInDim ⟨2, ![M, 1]⟩ (![0] : Fin 1 → Fin 2))
  (hzN : (⟨0, ![]⟩ : Shape).BroadcastsInDim ⟨1, ![N]⟩ (![] : Fin 0 → Fin 1))
  (hzM : (⟨0, ![]⟩ : Shape).BroadcastsInDim ⟨1, ![M]⟩ (![] : Fin 0 → Fin 1))

/-- Among the first M positions the longer list reads the original word. -/
theorem loops_left (x : IVec ⟨1, ![M]⟩ 32) (e : Fin M) (he : e.val < N) : loops h x (ix1 ⟨e.val, he⟩) = x (ix1 e) :=
  concat_vec_left x _ h e he

/-- At position M + j the longer list reads the word of j. -/
theorem loops_right (x : IVec ⟨1, ![M]⟩ 32) (j : Fin L) (hj : M + j.val < N) :
    loops h x (ix1 ⟨M + j.val, hj⟩) = BitVec.ofNat 32 j.val :=
  (concat_vec_right x _ h j hj).trans (iotaInDim_apply 32 0 (ix1 j))

/-- Among the first M positions the longer list's index column reads the original word. -/
theorem col_left (x : IVec ⟨1, ![M]⟩ 32) (e : Fin M) (he : e.val < N) :
    broadcastInDim ⟨2, ![N, 1]⟩ ![0] hcN (loops h x) (ix2 ⟨e.val, he⟩ (0 : Fin 1))
      = broadcastInDim ⟨2, ![M, 1]⟩ ![0] hcM x (ix2 e (0 : Fin 1)) :=
  (bid_col_apply _ hcN _ _).trans ((loops_left h x e he).trans (bid_col_apply _ hcM _ _).symm)

/-- At position M + j, j below 2³¹, the longer list's index column reads, signed, j. -/
theorem col_right (hL : L ≤ 2147483648) (x : IVec ⟨1, ![M]⟩ 32) (j : Fin L) (hj : M + j.val < N) :
    (broadcastInDim ⟨2, ![N, 1]⟩ ![0] hcN (loops h x) (ix2 ⟨M + j.val, hj⟩ (0 : Fin 1))).toInt = (j.val : ℤ) :=
  (congrArg BitVec.toInt ((bid_col_apply _ hcN _ _).trans (loops_right h x j hj))).trans
    (toInt_ofNat_of_lt _ (by have := j.isLt; omega))

/-- Among the first M positions the longer list's wrapped index column reads the original wrapped word. -/
theorem wcol_left (Lw : BitVec 32) (x : IVec ⟨1, ![M]⟩ 32) (e : Fin M) (he : e.val < N) :
    broadcastInDim ⟨2, ![N, 1]⟩ ![0] hcN (wrapW hzN Lw (loops h x)) (ix2 ⟨e.val, he⟩ (0 : Fin 1))
      = broadcastInDim ⟨2, ![M, 1]⟩ ![0] hcM (wrapW hzM Lw x) (ix2 e (0 : Fin 1)) := by
  refine (bid_col_apply _ hcN _ _).trans (Eq.trans ?_ (bid_col_apply _ hcM _ _).symm)
  rw [wrapW_apply, wrapW_apply, loops_left h x e he]

/-- At position M + j, j a node, the longer list's wrapped index column, read signed and clamped, is j. -/
theorem wcol_right (hL : L ≤ 2147483648) (Lw : BitVec 32) (x : IVec ⟨1, ![M]⟩ 32) (j : Fin L) (hj : M + j.val < N) :
    min (broadcastInDim ⟨2, ![N, 1]⟩ ![0] hcN (wrapW hzN Lw (loops h x)) (ix2 ⟨M + j.val, hj⟩ (0 : Fin 1))).toInt.toNat (L - 1)
      = j.val := by
  rw [bid_col_apply, wrapW_apply, loops_right h x j hj]
  exact keep_of_toInt_eq _ Lw j (toInt_ofNat_of_lt _ (by have := j.isLt; omega))

end Words

/-! ## Segment sums over the appended list, and lookups at its positions -/

section Scatter
variable {M L K N : ℕ}

/-- A segment sum of scalars over the list with the loop edges appended is the segment sum over the original list
    plus the loop edge's update. -/
theorem scatter_vec_append (hN : N = M + L)
    (wfN : ScatterDims.WF ⟨1, ![L]⟩ ⟨2, ![N, 1]⟩ ⟨1, ![N]⟩ [] [0] [0] 1)
    (wfM : ScatterDims.WF ⟨1, ![L]⟩ ⟨2, ![M, 1]⟩ ⟨1, ![M]⟩ [] [0] [0] 1)
    (x0 : (⟨1, ![L]⟩ : Shape).Idx → EReal) (idxN : IVec ⟨2, ![N, 1]⟩ 32) (idxM : IVec ⟨2, ![M, 1]⟩ 32)
    (updN : (⟨1, ![N]⟩ : Shape).Idx → EReal) (updM : (⟨1, ![M]⟩ : Shape).Idx → EReal) (n : Fin L)
    (hleft : ∀ e : Fin M, idxN (ix2 ⟨e.val, by omega⟩ (0 : Fin 1)) = idxM (ix2 e (0 : Fin 1)))
    (hright : ∀ j : Fin L, (idxN (ix2 ⟨M + j.val, by omega⟩ (0 : Fin 1))).toInt = (j.val : ℤ))
    (hupd : ∀ e : Fin M, updN (ix1 ⟨e.val, by omega⟩) = updM (ix1 e)) :
    Ideal.hostScatterAdd (vecDims L N wfN) x0 idxN updN (ix1 n)
      = Ideal.hostScatterAdd (vecDims L M wfM) x0 idxM updM (ix1 n) + updN (ix1 ⟨M + n.val, by omega⟩) := by
  rw [hostScatterAdd_vec_apply, hostScatterAdd_vec_apply]
  refine (congrArg (x0 (ix1 n) + ·) (sum_fibre_append hN (fun e : Fin N => (idxN (ix2 e (0 : Fin 1))).toInt)
    (fun e => updN (ix1 e)) n hright)).trans ?_
  refine (add_assoc _ _ _).symm.trans ?_
  refine congrArg (· + updN (ix1 ⟨M + n.val, by omega⟩)) (congrArg (x0 (ix1 n) + ·) ?_)
  exact Finset.sum_congr (Finset.filter_congr fun e _ => by simp only [hleft e]) (fun e _ => hupd e)

/-- A segment sum of rows over the list with the loop edges appended is, column by column, the segment sum over the
    original list plus the loop edge's update row. -/
theorem scatter_row_append (hN : N = M + L)
    (wfN : ScatterDims.WF ⟨2, ![L, K]⟩ ⟨2, ![N, 1]⟩ ⟨2, ![N, K]⟩ [1] [0] [0] 1)
    (wfM : ScatterDims.WF ⟨2, ![L, K]⟩ ⟨2, ![M, 1]⟩ ⟨2, ![M, K]⟩ [1] [0] [0] 1)
    (x0 : (⟨2, ![L, K]⟩ : Shape).Idx → EReal) (idxN : IVec ⟨2, ![N, 1]⟩ 32) (idxM : IVec ⟨2, ![M, 1]⟩ 32)
    (updN : (⟨2, ![N, K]⟩ : Shape).Idx → EReal) (updM : (⟨2, ![M, K]⟩ : Shape).Idx → EReal) (n : Fin L) (c : Fin K)
    (hleft : ∀ e : Fin M, idxN (ix2 ⟨e.val, by omega⟩ (0 : Fin 1)) = idxM (ix2 e (0 : Fin 1)))
    (hright : ∀ j : Fin L, (idxN (ix2 ⟨M + j.val, by omega⟩ (0 : Fin 1))).toInt = (j.val : ℤ))
    (hupd : ∀ e : Fin M, updN (ix2 ⟨e.val, by omega⟩ c) = updM (ix2 e c)) :
    Ideal.hostScatterAdd (rowDims L K N wfN) x0 idxN updN (ix2 n c)
      = Ideal.hostScatterAdd (rowDims L K M wfM) x0 idxM updM (ix2 n c) + updN (ix2 ⟨M + n.val, by omega⟩ c) := by
  rw [hostScatterAdd_row_apply, hostScatterAdd_row_apply]
  refine (congrArg (x0 (ix2 n c) + ·) (sum_fibre_append hN (fun e : Fin N => (idxN (ix2 e (0 : Fin 1))).toInt)
    (fun e => updN (ix2 e c)) n hright)).trans ?_
  refine (add_assoc _ _ _).symm.trans ?_
  refine congrArg (· + updN (ix2 ⟨M + n.val, by omega⟩ c)) (congrArg (x0 (ix2 n c) + ·) ?_)
  exact Finset.sum_congr (Finset.filter_congr fun e _ => by simp only [hleft e]) (fun e _ => hupd e)

end Scatter

section Gather
variable {M L K N : ℕ} {β : Type}

/-- Two row lookups whose index words agree read the same entry. -/
theorem gather_row_congr (hL : 0 < L)
    (wfN : GatherDims.WF ⟨2, ![L, K]⟩ ⟨2, ![N, 1]⟩ ⟨2, ![N, K]⟩ [1] [0] [] [0] [] 1 ![1, K])
    (wfM : GatherDims.WF ⟨2, ![L, K]⟩ ⟨2, ![M, 1]⟩ ⟨2, ![M, K]⟩ [1] [0] [] [0] [] 1 ![1, K])
    (x : (⟨2, ![L, K]⟩ : Shape).Idx → β) (idxN : IVec ⟨2, ![N, 1]⟩ 32) (idxM : IVec ⟨2, ![M, 1]⟩ 32)
    (e' : Fin N) (e : Fin M) (c : Fin K) (hidx : idxN (ix2 e' (0 : Fin 1)) = idxM (ix2 e (0 : Fin 1))) :
    Host.gather (rowTake L K N wfN) x idxN (ix2 e' c) = Host.gather (rowTake L K M wfM) x idxM (ix2 e c) := by
  rw [gather_row_apply hL, gather_row_apply hL]
  exact congrArg (fun k => x (ix2 k c)) (Fin.ext (by
    show min (idxN (ix2 e' (0 : Fin 1))).toInt.toNat (L - 1) = min (idxM (ix2 e (0 : Fin 1))).toInt.toNat (L - 1)
    rw [hidx]))

/-- A row lookup whose index word, read signed and clamped, is n reads row n. -/
theorem gather_row_at (hL : 0 < L)
    (wfN : GatherDims.WF ⟨2, ![L, K]⟩ ⟨2, ![N, 1]⟩ ⟨2, ![N, K]⟩ [1] [0] [] [0] [] 1 ![1, K])
    (x : (⟨2, ![L, K]⟩ : Shape).Idx → β) (idxN : IVec ⟨2, ![N, 1]⟩ 32) (e' : Fin N) (c : Fin K) (n : Fin L)
    (hk : min (idxN (ix2 e' (0 : Fin 1))).toInt.toNat (L - 1) = n.val) :
    Host.gather (rowTake L K N wfN) x idxN (ix2 e' c) = x (ix2 n c) :=
  (gather_row_apply hL wfN x idxN e' c).trans (congrArg (fun k => x (ix2 k c)) (Fin.ext hk))

/-- Two vector lookups whose index words agree read the same entry. -/
theorem gather_vec_congr (hL : 0 < L)
    (wfN : GatherDims.WF ⟨1, ![L]⟩ ⟨2, ![N, 1]⟩ ⟨1, ![N]⟩ [] [0] [] [0] [] 1 ![1])
    (wfM : GatherDims.WF ⟨1, ![L]⟩ ⟨2, ![M, 1]⟩ ⟨1, ![M]⟩ [] [0] [] [0] [] 1 ![1])
    (x : (⟨1, ![L]⟩ : Shape).Idx → β) (idxN : IVec ⟨2, ![N, 1]⟩ 32) (idxM : IVec ⟨2, ![M, 1]⟩ 32)
    (e' : Fin N) (e : Fin M) (hidx : idxN (ix2 e' (0 : Fin 1)) = idxM (ix2 e (0 : Fin 1))) :
    Host.gather (vecTake L N wfN) x idxN (ix1 e') = Host.gather (vecTake L M wfM) x idxM (ix1 e) := by
  rw [gather_vec_apply hL, gather_vec_apply hL]
  exact congrArg (fun k => x (ix1 k)) (Fin.ext (by
    show min (idxN (ix2 e' (0 : Fin 1))).toInt.toNat (L - 1) = min (idxM (ix2 e (0 : Fin 1))).toInt.toNat (L - 1)
    rw [hidx]))

/-- A vector lookup whose index word, read signed and clamped, is n reads entry n. -/
theorem gather_vec_at (hL : 0 < L)
    (wfN : GatherDims.WF ⟨1, ![L]⟩ ⟨2, ![N, 1]⟩ ⟨1, ![N]⟩ [] [0] [] [0] [] 1 ![1])
    (x : (⟨1, ![L]⟩ : Shape).Idx → β) (idxN : IVec ⟨2, ![N, 1]⟩ 32) (e' : Fin N) (n : Fin L)
    (hk : min (idxN (ix2 e' (0 : Fin 1))).toInt.toNat (L - 1) = n.val) :
    Host.gather (vecTake L N wfN) x idxN (ix1 e') = x (ix1 n) :=
  (gather_vec_apply hL wfN x idxN e').trans (congrArg (fun k => x (ix1 k)) (Fin.ext hk))

end Gather

/-- A message row at an entry: a matrix times a per-row weight a · b, the weight made a column and repeated over the
    columns, reads g(e, c) · (a e · b e). -/
theorem weighted_apply {P K : ℕ} (g : FVec Ideal ⟨2, ![P, K]⟩ .f32) (a b : FVec Ideal ⟨1, ![P]⟩ .f32)
    (hc : (⟨1, ![P]⟩ : Shape).BroadcastsInDim ⟨2, ![P, 1]⟩ (![0] : Fin 1 → Fin 2))
    (h2 : (⟨2, ![P, 1]⟩ : Shape).BroadcastsInDim ⟨2, ![P, K]⟩ (![0, 1] : Fin 2 → Fin 2)) (e : Fin P) (c : Fin K) :
    mulf g (broadcastInDim ⟨2, ![P, K]⟩ ![0, 1] h2 (broadcastInDim ⟨2, ![P, 1]⟩ ![0] hc (mulf a b))) (ix2 e c)
      = g (ix2 e c) * (a (ix1 e) * b (ix1 e)) :=
  (mulf_apply _ _ _).trans (congrArg (g (ix2 e c) * ·)
    ((bid_a1_ab_apply _ h2 e c).trans ((bid_col_apply _ hc e 0).trans (mulf_apply a b (ix1 e)))))

/-! ## One layer's sum, and the degree, over the appended list -/

section Core
variable {M L K N : ℕ}

/-- The degree over the list with the loop edges appended is the degree over the original list plus one. -/
theorem deg_core (hN : N = M + L) (hL : L ≤ 2147483648)
    (hcat : Shape.Concatenates [(⟨1, ![M]⟩ : Shape), ⟨1, ![L]⟩] ⟨1, ![N]⟩ 0)
    (hcN : (⟨1, ![N]⟩ : Shape).BroadcastsInDim ⟨2, ![N, 1]⟩ (![0] : Fin 1 → Fin 2))
    (hcM : (⟨1, ![M]⟩ : Shape).BroadcastsInDim ⟨2, ![M, 1]⟩ (![0] : Fin 1 → Fin 2))
    (hzN : (⟨0, ![]⟩ : Shape).BroadcastsInDim ⟨1, ![N]⟩ (![] : Fin 0 → Fin 1))
    (hzM : (⟨0, ![]⟩ : Shape).BroadcastsInDim ⟨1, ![M]⟩ (![] : Fin 0 → Fin 1))
    (wsN : ScatterDims.WF ⟨1, ![L]⟩ ⟨2, ![N, 1]⟩ ⟨1, ![N]⟩ [] [0] [0] 1)
    (wsM : ScatterDims.WF ⟨1, ![L]⟩ ⟨2, ![M, 1]⟩ ⟨1, ![M]⟩ [] [0] [0] 1)
    (Z : FVec Ideal ⟨1, ![L]⟩ .f32) (one : FVec Ideal ⟨0, ![]⟩ .f32) (d : IVec ⟨1, ![M]⟩ 32) (n : Fin L) :
    Ideal.hostScatterAdd (vecDims L N wsN) Z (broadcastInDim ⟨2, ![N, 1]⟩ ![0] hcN (loops hcat d))
        (broadcastInDim ⟨1, ![N]⟩ ![] hzN one) (ix1 n)
      = Ideal.hostScatterAdd (vecDims L M wsM) Z (broadcastInDim ⟨2, ![M, 1]⟩ ![0] hcM d)
          (broadcastInDim ⟨1, ![M]⟩ ![] hzM one) (ix1 n) + one ix0 :=
  (scatter_vec_append hN wsN wsM Z _ _ _ _ n
    (fun e => col_left hcat hcN hcM d e (by omega))
    (fun j => col_right hcat hcN hL d j (by omega))
    (fun e => (bid_scalar_apply one hzN _).trans (bid_scalar_apply one hzM _).symm)).trans
    (congrArg (_ + ·) (bid_scalar_apply one hzN _))

/-- If a = b + c and c = c' then a = b + c'. -/
theorem eq_add_of {a b c c' : EReal} (h1 : a = b + c) (hc : c = c') : a = b + c' := h1.trans (congrArg (b + ·) hc)

/-- The messages of a list of P edges with source words ws and destination words wd: row e is h at the source, times
    dinv at the source times dinv at the destination. -/
abbrev msgs {P : ℕ} (hc : (⟨1, ![P]⟩ : Shape).BroadcastsInDim ⟨2, ![P, 1]⟩ (![0] : Fin 1 → Fin 2))
    (h2 : (⟨2, ![P, 1]⟩ : Shape).BroadcastsInDim ⟨2, ![P, K]⟩ (![0, 1] : Fin 2 → Fin 2))
    (wr : GatherDims.WF ⟨2, ![L, K]⟩ ⟨2, ![P, 1]⟩ ⟨2, ![P, K]⟩ [1] [0] [] [0] [] 1 ![1, K])
    (wv : GatherDims.WF ⟨1, ![L]⟩ ⟨2, ![P, 1]⟩ ⟨1, ![P]⟩ [] [0] [] [0] [] 1 ![1])
    (h : FVec Ideal ⟨2, ![L, K]⟩ .f32) (di : FVec Ideal ⟨1, ![L]⟩ .f32) (ws wd : IVec ⟨1, ![P]⟩ 32) :
    FVec Ideal ⟨2, ![P, K]⟩ .f32 :=
  mulf (Host.gather (rowTake L K P wr) h (broadcastInDim ⟨2, ![P, 1]⟩ ![0] hc ws))
    (broadcastInDim ⟨2, ![P, K]⟩ ![0, 1] h2 (broadcastInDim ⟨2, ![P, 1]⟩ ![0] hc
      (mulf (Host.gather (vecTake L P wv) di (broadcastInDim ⟨2, ![P, 1]⟩ ![0] hc ws))
        (Host.gather (vecTake L P wv) di (broadcastInDim ⟨2, ![P, 1]⟩ ![0] hc wd)))))

section Msgs
variable (Lw : BitVec 32)
    (hcat : Shape.Concatenates [(⟨1, ![M]⟩ : Shape), ⟨1, ![L]⟩] ⟨1, ![N]⟩ 0)
    (hcN : (⟨1, ![N]⟩ : Shape).BroadcastsInDim ⟨2, ![N, 1]⟩ (![0] : Fin 1 → Fin 2))
    (hcM : (⟨1, ![M]⟩ : Shape).BroadcastsInDim ⟨2, ![M, 1]⟩ (![0] : Fin 1 → Fin 2))
    (hzN : (⟨0, ![]⟩ : Shape).BroadcastsInDim ⟨1, ![N]⟩ (![] : Fin 0 → Fin 1))
    (hzM : (⟨0, ![]⟩ : Shape).BroadcastsInDim ⟨1, ![M]⟩ (![] : Fin 0 → Fin 1))
    (h2N : (⟨2, ![N, 1]⟩ : Shape).BroadcastsInDim ⟨2, ![N, K]⟩ (![0, 1] : Fin 2 → Fin 2))
    (h2M : (⟨2, ![M, 1]⟩ : Shape).BroadcastsInDim ⟨2, ![M, K]⟩ (![0, 1] : Fin 2 → Fin 2))
    (wrN : GatherDims.WF ⟨2, ![L, K]⟩ ⟨2, ![N, 1]⟩ ⟨2, ![N, K]⟩ [1] [0] [] [0] [] 1 ![1, K])
    (wrM : GatherDims.WF ⟨2, ![L, K]⟩ ⟨2, ![M, 1]⟩ ⟨2, ![M, K]⟩ [1] [0] [] [0] [] 1 ![1, K])
    (wvN : GatherDims.WF ⟨1, ![L]⟩ ⟨2, ![N, 1]⟩ ⟨1, ![N]⟩ [] [0] [] [0] [] 1 ![1])
    (wvM : GatherDims.WF ⟨1, ![L]⟩ ⟨2, ![M, 1]⟩ ⟨1, ![M]⟩ [] [0] [] [0] [] 1 ![1])
    (h : FVec Ideal ⟨2, ![L, K]⟩ .f32) (di : FVec Ideal ⟨1, ![L]⟩ .f32) (s d : IVec ⟨1, ![M]⟩ 32)

/-- Among the first M positions the longer list's messages are the original messages. -/
theorem msgs_left (hL0 : 0 < L) (e : Fin M) (he : e.val < N) (c : Fin K) :
    msgs hcN h2N wrN wvN h di (wrapW hzN Lw (loops hcat s)) (wrapW hzN Lw (loops hcat d)) (ix2 ⟨e.val, he⟩ c)
      = msgs hcM h2M wrM wvM h di (wrapW hzM Lw s) (wrapW hzM Lw d) (ix2 e c) := by
  refine (weighted_apply _ _ _ hcN h2N _ c).trans (Eq.trans ?_ (weighted_apply _ _ _ hcM h2M e c).symm)
  rw [gather_row_congr hL0 wrN wrM h _ _ _ e c (wcol_left hcat hcN hcM hzN hzM Lw s e he),
    gather_vec_congr hL0 wvN wvM di _ _ _ e (wcol_left hcat hcN hcM hzN hzM Lw s e he),
    gather_vec_congr hL0 wvN wvM di _ _ _ e (wcol_left hcat hcN hcM hzN hzM Lw d e he)]

/-- At position M + n the longer list's message is node n's own message h(n, c) · (dinv n · dinv n). -/
theorem msgs_right (hL0 : 0 < L) (hL : L ≤ 2147483648) (n : Fin L) (hn : M + n.val < N) (c : Fin K) :
    msgs hcN h2N wrN wvN h di (wrapW hzN Lw (loops hcat s)) (wrapW hzN Lw (loops hcat d)) (ix2 ⟨M + n.val, hn⟩ c)
      = h (ix2 n c) * (di (ix1 n) * di (ix1 n)) := by
  refine (weighted_apply _ _ _ hcN h2N _ c).trans ?_
  rw [gather_row_at hL0 wrN h _ _ c n (wcol_right hcat hcN hzN hL Lw s n hn),
    gather_vec_at hL0 wvN di _ _ n (wcol_right hcat hcN hzN hL Lw s n hn),
    gather_vec_at hL0 wvN di _ _ n (wcol_right hcat hcN hzN hL Lw d n hn)]

end Msgs

/-- One layer's sum of messages over the list with the loop edges appended is the sum over the original list plus the
    node's own message h(n, c) · (dinv n · dinv n). -/
theorem conv_core (hN : N = M + L) (hL0 : 0 < L) (hL : L ≤ 2147483648) (Lw : BitVec 32)
    (hcat : Shape.Concatenates [(⟨1, ![M]⟩ : Shape), ⟨1, ![L]⟩] ⟨1, ![N]⟩ 0)
    (hcN : (⟨1, ![N]⟩ : Shape).BroadcastsInDim ⟨2, ![N, 1]⟩ (![0] : Fin 1 → Fin 2))
    (hcM : (⟨1, ![M]⟩ : Shape).BroadcastsInDim ⟨2, ![M, 1]⟩ (![0] : Fin 1 → Fin 2))
    (hzN : (⟨0, ![]⟩ : Shape).BroadcastsInDim ⟨1, ![N]⟩ (![] : Fin 0 → Fin 1))
    (hzM : (⟨0, ![]⟩ : Shape).BroadcastsInDim ⟨1, ![M]⟩ (![] : Fin 0 → Fin 1))
    (h2N : (⟨2, ![N, 1]⟩ : Shape).BroadcastsInDim ⟨2, ![N, K]⟩ (![0, 1] : Fin 2 → Fin 2))
    (h2M : (⟨2, ![M, 1]⟩ : Shape).BroadcastsInDim ⟨2, ![M, K]⟩ (![0, 1] : Fin 2 → Fin 2))
    (wsN : ScatterDims.WF ⟨2, ![L, K]⟩ ⟨2, ![N, 1]⟩ ⟨2, ![N, K]⟩ [1] [0] [0] 1)
    (wsM : ScatterDims.WF ⟨2, ![L, K]⟩ ⟨2, ![M, 1]⟩ ⟨2, ![M, K]⟩ [1] [0] [0] 1)
    (wrN : GatherDims.WF ⟨2, ![L, K]⟩ ⟨2, ![N, 1]⟩ ⟨2, ![N, K]⟩ [1] [0] [] [0] [] 1 ![1, K])
    (wrM : GatherDims.WF ⟨2, ![L, K]⟩ ⟨2, ![M, 1]⟩ ⟨2, ![M, K]⟩ [1] [0] [] [0] [] 1 ![1, K])
    (wvN : GatherDims.WF ⟨1, ![L]⟩ ⟨2, ![N, 1]⟩ ⟨1, ![N]⟩ [] [0] [] [0] [] 1 ![1])
    (wvM : GatherDims.WF ⟨1, ![L]⟩ ⟨2, ![M, 1]⟩ ⟨1, ![M]⟩ [] [0] [] [0] [] 1 ![1])
    (Z h : FVec Ideal ⟨2, ![L, K]⟩ .f32) (di : FVec Ideal ⟨1, ![L]⟩ .f32) (s d : IVec ⟨1, ![M]⟩ 32)
    (n : Fin L) (c : Fin K) :
    Ideal.hostScatterAdd (rowDims L K N wsN) Z (broadcastInDim ⟨2, ![N, 1]⟩ ![0] hcN (loops hcat d))
        (msgs hcN h2N wrN wvN h di (wrapW hzN Lw (loops hcat s)) (wrapW hzN Lw (loops hcat d))) (ix2 n c)
      = Ideal.hostScatterAdd (rowDims L K M wsM) Z (broadcastInDim ⟨2, ![M, 1]⟩ ![0] hcM d)
          (msgs hcM h2M wrM wvM h di (wrapW hzM Lw s) (wrapW hzM Lw d)) (ix2 n c)
        + h (ix2 n c) * (di (ix1 n) * di (ix1 n)) := by
  have key := scatter_row_append hN wsN wsM Z (broadcastInDim ⟨2, ![N, 1]⟩ ![0] hcN (loops hcat d))
    (broadcastInDim ⟨2, ![M, 1]⟩ ![0] hcM d)
    (msgs hcN h2N wrN wvN h di (wrapW hzN Lw (loops hcat s)) (wrapW hzN Lw (loops hcat d)))
    (msgs hcM h2M wrM wvM h di (wrapW hzM Lw s) (wrapW hzM Lw d)) n c
  exact eq_add_of
    (key (fun e => col_left hcat hcN hcM d e _) (fun j => col_right hcat hcN hL d j _)
      (fun e => msgs_left Lw hcat hcN hcM hzN hzM h2N h2M wrN wrM wvN wvM h di s d hL0 e _ c))
    (msgs_right Lw hcat hcN hzN h2N wrN wvN h di s d hL0 hL n _ c)

end Core

/-- At the extended reals the host's accumulating scatter is the exact segment sum. -/
theorem scatterAdd_ideal {s si u : Shape} {w : ℕ} (D : ScatterDims s si u) (x : FVec Ideal s .f32) (idx : IVec si w)
    (upd : FVec Ideal u .f32) : Host.scatterAdd (F := Ideal) D x idx upd = Ideal.hostScatterAdd D x idx upd := rfl

end Cert.GcnSpec.Loop

namespace Cert.GcnSpec

open Idealize.ShloMosaic Idealize.ShloMosaic.ValueIdx Idealize.ShloMosaic.LibSegment Cert.LibBcast Cert.GcnSpec.Loop

/-! ## The printed dimension records are the segment sums and lookups along the leading axis -/

theorem scatterR_vec : Cert.ReferenceIdeal.scatter_S50000_S850000x1_S850000_n_0_0_1
    = vecDims 50000 850000 Cert.ReferenceIdeal.Facts₀.scatter_S50000_S850000x1_S850000_n_0_0_1_wf := rfl
theorem scatterK_vec : Cert.KernelIdeal.scatter_S50000_S800000x1_S800000_n_0_0_1
    = vecDims 50000 800000 Cert.KernelIdeal.Facts₀.scatter_S50000_S800000x1_S800000_n_0_0_1_wf := rfl
theorem scatterR_row : Cert.ReferenceIdeal.scatter_S50000x128_S850000x1_S850000x128_1_0_0_1
    = rowDims 50000 128 850000 Cert.ReferenceIdeal.Facts₀.scatter_S50000x128_S850000x1_S850000x128_1_0_0_1_wf := rfl
theorem scatterK_row : Cert.KernelIdeal.scatter_S50000x128_S800000x1_S800000x128_1_0_0_1
    = rowDims 50000 128 800000 Cert.KernelIdeal.Facts₀.scatter_S50000x128_S800000x1_S800000x128_1_0_0_1_wf := rfl
theorem gatherR_row : Cert.ReferenceIdeal.gather_S50000x128_S850000x1_S850000x128_1_0_n_n_0_1_1128
    = rowTake 50000 128 850000 Cert.ReferenceIdeal.Facts₀.gather_S50000x128_S850000x1_S850000x128_1_0_n_n_0_1_1128_wf := rfl
theorem gatherK_row : Cert.KernelIdeal.gather_S50000x128_S800000x1_S800000x128_1_0_n_n_0_1_1128
    = rowTake 50000 128 800000 Cert.KernelIdeal.Facts₀.gather_S50000x128_S800000x1_S800000x128_1_0_n_n_0_1_1128_wf := rfl
theorem gatherR_vec : Cert.ReferenceIdeal.gather_S50000_S850000x1_S850000_n_0_n_n_0_1_1
    = vecTake 50000 850000 Cert.ReferenceIdeal.Facts₀.gather_S50000_S850000x1_S850000_n_0_n_n_0_1_1_wf := rfl
theorem gatherK_vec : Cert.KernelIdeal.gather_S50000_S800000x1_S800000_n_0_n_n_0_1_1
    = vecTake 50000 800000 Cert.KernelIdeal.Facts₀.gather_S50000_S800000x1_S800000_n_0_n_n_0_1_1_wf := rfl

/-! ## The two ways of writing the self loop agree -/

/-- The degree counted over the list with the loop edges appended is the degree with the self loop counted apart. -/
theorem deg_eq (d : IV Cert.KernelIdeal.S800000) : R.deg d = K.deg d := by
  funext i
  obtain ⟨n, rfl⟩ : ∃ n : Fin 50000, i = ix1 n := ⟨i 0, eq_ix1 i⟩
  unfold R.deg K.deg R.withLoops
  refine Eq.trans ?_ (addf_apply _ _ _).symm
  rw [scatterAdd_ideal, scatterAdd_ideal, scatterR_vec, scatterK_vec]
  refine (deg_core (M := 800000) (L := 50000) (N := 850000) (by norm_num) (by norm_num)
    Cert.ReferenceIdeal.Facts₀.concatenates_S800000_S50000_S850000_d0
    Cert.ReferenceIdeal.Facts₀.bcast_S850000_S850000x1_0
    Cert.KernelIdeal.Facts₀.bcast_S800000_S800000x1_0
    Cert.ReferenceIdeal.Facts₀.bcast_S_S850000
    Cert.KernelIdeal.Facts₀.bcast_S_S800000
    Cert.ReferenceIdeal.Facts₀.scatter_S50000_S850000x1_S850000_n_0_0_1_wf
    Cert.KernelIdeal.Facts₀.scatter_S50000_S800000x1_S800000_n_0_0_1_wf
    _ _ d n).trans ?_
  exact congrArg (HAdd.hAdd _) (bid_scalar_apply _ _ _).symm

/-- One layer over the list with the loop edges appended is the layer with the self loop as its own summand. -/
theorem conv_eq (h : FV Cert.KernelIdeal.S50000x128) (di : FV Cert.KernelIdeal.S50000) (s d : IV Cert.KernelIdeal.S800000)
    (b : FV Cert.KernelIdeal.S128) : R.conv h di s d b = K.conv h di s d b := by
  funext i
  obtain ⟨n, c, rfl⟩ : ∃ (n : Fin 50000) (c : Fin 128), i = ix2 n c := ⟨i 0, i 1, eq_ix2 i⟩
  unfold R.conv K.conv R.withLoops R.wrap K.wrap
  refine (addf_apply _ _ _).trans (Eq.trans ?_ (addf_apply _ _ _).symm)
  refine congrArg₂ (· + ·) ?_ rfl
  refine Eq.trans ?_ (addf_apply _ _ _).symm
  rw [scatterAdd_ideal, scatterAdd_ideal, scatterR_row, scatterK_row, gatherR_row, gatherK_row, gatherR_vec, gatherK_vec]
  refine (conv_core (M := 800000) (L := 50000) (K := 128) (N := 850000) (by norm_num) (by norm_num) (by norm_num) 50000#32
    Cert.ReferenceIdeal.Facts₀.concatenates_S800000_S50000_S850000_d0
    Cert.ReferenceIdeal.Facts₀.bcast_S850000_S850000x1_0
    Cert.KernelIdeal.Facts₀.bcast_S800000_S800000x1_0
    Cert.ReferenceIdeal.Facts₀.bcast_S_S850000
    Cert.KernelIdeal.Facts₀.bcast_S_S800000
    Cert.ReferenceIdeal.Facts₀.bcast_S850000x1_S850000x128_0_1
    Cert.KernelIdeal.Facts₀.bcast_S800000x1_S800000x128_0_1
    Cert.ReferenceIdeal.Facts₀.scatter_S50000x128_S850000x1_S850000x128_1_0_0_1_wf
    Cert.KernelIdeal.Facts₀.scatter_S50000x128_S800000x1_S800000x128_1_0_0_1_wf
    Cert.ReferenceIdeal.Facts₀.gather_S50000x128_S850000x1_S850000x128_1_0_n_n_0_1_1128_wf
    Cert.KernelIdeal.Facts₀.gather_S50000x128_S800000x1_S800000x128_1_0_n_n_0_1_1128_wf
    Cert.ReferenceIdeal.Facts₀.gather_S50000_S850000x1_S850000_n_0_n_n_0_1_1_wf
    Cert.KernelIdeal.Facts₀.gather_S50000_S800000x1_S800000_n_0_n_n_0_1_1_wf
    _ h di s d n c).trans ?_
  exact congrArg (HAdd.hAdd _) (weighted_apply h di di _ _ n c).symm

end Cert.GcnSpec

end
-- ==== Proof.LinEq.lean ====
/-
  The host's matrix product of the features with a weight matrix, entry by entry.

  The reference computes h = x · W with the host's general product contracted over the shared axis of a 50000 × 128 and
  a 128 × 128 matrix. On the extended reals that product has at (n, c) the value Σ_k x(n, k) · W(k, c), with no rounding
  and no order of accumulation: it is the entry-by-entry transform named in the specification.
-/
import proofs.«155974_j83313775608468_2_alg».proof.Proof.Spec
import Idealize.ShloMosaic.Lib.StackMember

noncomputable section

namespace Cert.GcnSpec

open Idealize.ShloMosaic Idealize.ShloMosaic.ValueIdx
open scoped BigOperators

/-- The host's product of the features with the weights is the entry-by-entry transform: at (n, c) both are
    Σ_k x(n, k) · W(k, c). -/
theorem lin_eq (x : FV Cert.KernelIdeal.S50000x128) (w : FV Cert.KernelIdeal.S128x128) : R.lin x w = matSpec x w := by
  funext i
  obtain ⟨n, c, rfl⟩ : ∃ (n : Fin 50000) (c : Fin 128), i = ix2 n c := ⟨i 0, i 1, eq_ix2 i⟩
  unfold R.lin matSpec
  exact StackMember.dotGeneral_plain_apply (m := 50000) (k := 128) (n := 128) none x w n c

end Cert.GcnSpec

end
-- ==== Proof.Bridge.lean ====
/-
  The two programs compute one function of the argument arrays.

  Term by term the reference differs from the kernel program in three places only: it counts the degrees over the edge list
  with the loop edges appended where the kernel program counts the edges and adds one; in each layer it sums the messages
  over that longer list where the kernel program sums over the edges and adds the self-loop term h · dinv² apart; and it
  writes the feature transform as the host's matrix product where the kernel program's regions leave Σ_k x(n,k) · W(k,c)
  tile by tile. Each pair agrees at the extended reals (only commutativity and associativity of + are used), and
  everything around them is the same term.
-/
import proofs.«155974_j83313775608468_2_alg».proof.Proof.KernelValue
import proofs.«155974_j83313775608468_2_alg».proof.Proof.RefValue
import proofs.«155974_j83313775608468_2_alg».proof.Proof.LoopEdges
import proofs.«155974_j83313775608468_2_alg».proof.Proof.LinEq

noncomputable section

namespace Cert.GcnSpec

open Idealize.ShloMosaic

/-- The reference's term and the kernel program's term are equal on all arguments. -/
theorem terms_eq (a0 : IV Cert.KernelIdeal.S2x800000) (a1 : IV Cert.KernelIdeal.S2x400000) (a2 : FV Cert.KernelIdeal.S50000x128)
    (a3 : FV Cert.KernelIdeal.S128x128) (a4 : FV Cert.KernelIdeal.S128) (a5 : FV Cert.KernelIdeal.S128x128) (a6 : FV Cert.KernelIdeal.S128) :
    Cert.ReferenceIdeal.Stretch.refTerm a0 a1 a2 a3 a4 a5 a6 = Cert.KernelIdeal.RunValue.kernelTerm a0 a1 a2 a3 a4 a5 a6 := by
  unfold Cert.ReferenceIdeal.Stretch.refTerm Cert.KernelIdeal.RunValue.kernelTerm
  rw [deg_eq, lin_eq, conv_eq, lin_eq, conv_eq]

end Cert.GcnSpec

end
-- ==== Proof.lean ====
/-
  A two-layer graph convolution with a pair decoder: the tiled kernel program against the plain reference.

  Both programs normalise by deg^(-1/2), transform the features by a matrix product, sum the edges' messages into their
  destination nodes, add the bias, and decode candidate pairs by inner products. The kernel program computes the two feature
  transforms in row-tiled regions and adds the self-loop term apart; the reference appends the loop edges to the edge list.
  At the extended reals the two are one function of the arguments (Proof/Bridge.lean); the kernel program's run with its
  result named is read off its seven segments (Proof/KernelRun.lean, Proof/KernelValue.lean), the reference's off its line of
  host operations (Proof/RefRun.lean, Proof/RefFrame.lean).
-/
import proofs.«155974_j83313775608468_2_alg».proof.Defs
import proofs.«155974_j83313775608468_2_alg».proof.Proof.Gen.Kernel
import proofs.«155974_j83313775608468_2_alg».proof.Proof.Gen.Kernel.Skeleton
import proofs.«155974_j83313775608468_2_alg».proof.Proof.Gen.Kernel.Launch
import proofs.«155974_j83313775608468_2_alg».proof.Proof.Gen.Kernel.Points
import proofs.«155974_j83313775608468_2_alg».proof.Proof.Gen.Kernel.Frame
import proofs.«155974_j83313775608468_2_alg».proof.Proof.Gen.KernelIdeal
import proofs.«155974_j83313775608468_2_alg».proof.Proof.Gen.KernelIdeal.Skeleton
import proofs.«155974_j83313775608468_2_alg».proof.Proof.Gen.KernelIdeal.Launch
import proofs.«155974_j83313775608468_2_alg».proof.Proof.Gen.KernelIdeal.Points
import proofs.«155974_j83313775608468_2_alg».proof.Proof.Gen.KernelIdeal.Frame
import proofs.«155974_j83313775608468_2_alg».proof.Proof.Gen.ReferenceIdeal
import proofs.«155974_j83313775608468_2_alg».proof.Proof.Gen.Pre_finite_inputs
import proofs.«155974_j83313775608468_2_alg».proof.Proof.KernelRun
import proofs.«155974_j83313775608468_2_alg».proof.Proof.KernelValue
import proofs.«155974_j83313775608468_2_alg».proof.Proof.RefFrame
import proofs.«155974_j83313775608468_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- So does the idealized reference: its run with the result dropped. -/
theorem frame_ri : Cert.frame_ReferenceIdeal := fun m ρ _ =>
  (θ_run Cert.ReferenceIdeal.defs _ _).mono (fun _ h c => (h c).2) (Cert.ReferenceIdeal.Stretch.run_named m ρ)

/-- The idealization rewrote nothing. -/
theorem preserves : Cert.preserves_Kernel_KernelIdeal := trivial

/-- From memories agreeing on the arguments both idealized programs end with the kernel program's term of the arguments
    in their result buffers: the reference's term is that term. -/
theorem algebraic : Cert.algebraic_KernelIdeal_ReferenceIdeal := by
  intro m ρ m' ρ' _ hagree
  refine ⟨fun c => Cert.KernelIdeal.RunValue.kernelTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.RunValue.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Stretch.run_named m' ρ')
    rw [(hagree c).1, (hagree c).2.1, (hagree c).2.2.1, (hagree c).2.2.2.1, (hagree c).2.2.2.2.1,
      (hagree c).2.2.2.2.2.1, (hagree c).2.2.2.2.2.2]
    exact Cert.GcnSpec.terms_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
